-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S32x1024x1024 : Shape := ⟨3, ![32, 1024, 1024]⟩
abbrev S64x64 : Shape := ⟨2, ![64, 64]⟩
abbrev S64 : Shape := ⟨1, ![64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_arg6 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S32x1024x64 .f32) (main_arg1 : FVec F S32x1024x1024 .f32) (main_arg2 : FVec F S64x64 .f32) (main_arg3 : FVec F S64x64 .f32) (main_arg4 : FVec F S64x64 .f32) (main_arg5 : FVec F S64 .f32) (main_arg6 : FVec F S64x64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S32x1024x64 : Shape := ⟨3, ![32, 1024, 64]⟩
abbrev S32x1024x1024 : Shape := ⟨3, ![32, 1024, 1024]⟩
abbrev S64x64 : Shape := ⟨2, ![64, 64]⟩
abbrev S64 : Shape := ⟨1, ![64]⟩
abbrev S1x64 : Shape := ⟨2, ![1, 64]⟩
abbrev S8x1024x64 : Shape := ⟨3, ![8, 1024, 64]⟩
abbrev S1024x1024 : Shape := ⟨2, ![1024, 1024]⟩
abbrev S1x1024x64 : Shape := ⟨3, ![1, 1024, 64]⟩
abbrev S1024x64 : Shape := ⟨2, ![1024, 64]⟩

abbrev nBuf : Space → Nat
  | .hbm => 9
  | .vmem => 9
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S1x64, .f32⟩
  | .hbm, ⟨8, _⟩ => ⟨S32x1024x64, .f32⟩
  | .local _ .vmem, ⟨0, _⟩ => ⟨S8x1024x64, .f32⟩
  | .local _ .vmem, ⟨1, _⟩ => ⟨S8x1024x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S8x1024x64, .f32⟩
  | .local _ .vmem, ⟨8, _⟩ => ⟨S8x1024x64, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S64x64_S64 : S64x64.Reduces [0] S64
  iota_S1024x1024_d0_w32 : S1024x1024.Iotas .tc 32 [0]
  iota_S1024x1024_d1_w32 : S1024x1024.Iotas .tc 32 [1]
  inb_S8x1024x64_S1x1024x64_0_0_0 : ∀ a, (![0, 0, 0] : Fin 3 → Nat) a + S1x1024x64.size a ≤ S8x1024x64.size a
  h_S1x1024x64 : 0 < S1x1024x64.numel
  shapeCasts_S1x1024x64_S1024x64 : S1x1024x64.ShapeCasts S1024x64
  broadcasts_S1x64_S1024x64 : S1x64.Broadcasts S1024x64
  shapeCasts_S1024x64_S1x1024x64 : S1024x64.ShapeCasts S1x1024x64
  inb_S8x1024x64_S1x1024x64_1_0_0 : ∀ a, (![1, 0, 0] : Fin 3 → Nat) a + S1x1024x64.size a ≤ S8x1024x64.size a
  inb_S8x1024x64_S1x1024x64_2_0_0 : ∀ a, (![2, 0, 0] : Fin 3 → Nat) a + S1x1024x64.size a ≤ S8x1024x64.size a
  inb_S8x1024x64_S1x1024x64_3_0_0 : ∀ a, (![3, 0, 0] : Fin 3 → Nat) a + S1x1024x64.size a ≤ S8x1024x64.size a
  inb_S8x1024x64_S1x1024x64_4_0_0 : ∀ a, (![4, 0, 0] : Fin 3 → Nat) a + S1x1024x64.size a ≤ S8x1024x64.size a
  inb_S8x1024x64_S1x1024x64_5_0_0 : ∀ a, (![5, 0, 0] : Fin 3 → Nat) a + S1x1024x64.size a ≤ S8x1024x64.size a
  inb_S8x1024x64_S1x1024x64_6_0_0 : ∀ a, (![6, 0, 0] : Fin 3 → Nat) a + S1x1024x64.size a ≤ S8x1024x64.size a
  inb_S8x1024x64_S1x1024x64_7_0_0 : ∀ a, (![7, 0, 0] : Fin 3 → Nat) a + S1x1024x64.size a ≤ S8x1024x64.size a
  dot_S1024x64_S64x64_S1024x64_1_0_0_1_n_n_wf : DotDims.WF S1024x64 S64x64 S1024x64 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S32x1024x64.size a
  hwx0_0 : ∀ i : grid0.Coords, EltTy.bits .f32 = 32 ∨ (Rect.block (s := S32x1024x64) S8x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1024x64.size a ≤ S32x1024x64.size a
  hwx0_6 : ∀ i : grid0.Coords, EltTy.bits .f32 = 32 ∨ (Rect.block (s := S32x1024x64) S8x1024x64.size (cc0_transform_6 i) (hinb0_6 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S8x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x1024x64 : Shape := ⟨3, ![32, 1024, 64]⟩
abbrev S32x1024x1024 : Shape := ⟨3, ![32, 1024, 1024]⟩
abbrev S64x64 : Shape := ⟨2, ![64, 64]⟩
abbrev S64 : Shape := ⟨1, ![64]⟩
abbrev S_ : Shape := ⟨0, ![]⟩
abbrev S1x1x64 : Shape := ⟨3, ![1, 1, 64]⟩
abbrev S1024x1024 : Shape := ⟨2, ![1024, 1024]⟩
abbrev S1x1024x1024 : Shape := ⟨3, ![1, 1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S32x1024x64, .f32⟩
  | .hbm, ⟨8, _⟩ => ⟨S_, .f32⟩
  | .hbm, ⟨9, _⟩ => ⟨S64, .f32⟩
  | .hbm, ⟨10, _⟩ => ⟨S1x1x64, .f32⟩
  | .hbm, ⟨11, _⟩ => ⟨S32x1024x64, .f32⟩
  | .hbm, ⟨12, _⟩ => ⟨S32x1024x64, .f32⟩
  | .hbm, ⟨13, _⟩ => ⟨S32x1024x1024, .f32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i32⟩
  | .hbm, ⟨19, _⟩ => ⟨S1024x1024, .i1⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1x1024x1024, .f32⟩
  | .hbm, ⟨25, _⟩ => ⟨S32x1024x1024, .f32⟩
  | .hbm, ⟨26, _⟩ => ⟨S32x1024x1024, .f32⟩
  | .hbm, ⟨27, _⟩ => ⟨S_, .f32⟩
  | .hbm, ⟨28, _⟩ => ⟨S_, .f32⟩
  | .hbm, ⟨29, _⟩ => ⟨S32x1024x1024, .f32⟩
  | .hbm, ⟨30, _⟩ => ⟨S32x1024x1024, .i1⟩
  | .hbm, ⟨31, _⟩ => ⟨S_, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S32x1024x64, .f32⟩
  | .hbm, ⟨36, _⟩ => ⟨S32x1024x64, .f32⟩
  | .hbm, ⟨37, _⟩ => ⟨S1x1x64, .f32⟩
  | .hbm, ⟨38, _⟩ => ⟨S32x1024x64, .f32⟩
  | .hbm, ⟨39, _⟩ => ⟨S32x1024x64, .f32⟩
  | .hbm, ⟨40, _⟩ => ⟨S32x1024x64, .f32⟩
  | .hbm, ⟨41, _⟩ => ⟨S32x1024x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  reducesTo_S64x64_S64_d0 : S64x64.ReducesTo [0] S64
  h_S_ : 0 < S_.numel
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S_S32x1024x1024 : S_.BroadcastsInDim S32x1024x1024 (![] : Fin 0 → Fin S32x1024x1024.rank)
  dot_S32x1024x64_S64x64_S32x1024x64_2_0_01_1_n_n_wf : DotDims.WF S32x1024x64 S64x64 S32x1024x64 [2] [0] [0, 1] [1] [] []
  dot_S32x1024x64_S32x1024x64_S32x1024x1024_2_2_1_1_0_0_wf : DotDims.WF S32x1024x64 S32x1024x64 S32x1024x1024 [2] [2] [1] [1] [0] [0]
  dot_S32x1024x1024_S32x1024x64_S32x1024x64_2_1_1_2_0_0_wf : DotDims.WF S32x1024x1024 S32x1024x64 S32x1024x64 [2] [1] [1] [2] [0] [0]

variable [Facts₀]

def dot_S32x1024x64_S64x64_S32x1024x64_2_0_01_1_n_n : DotDims S32x1024x64 S64x64 S32x1024x64 where
  lhsContracting := [2]
  rhsContracting := [0]
  lhsNonContracting := [0, 1]
  rhsNonContracting := [1]
  lhsBatch := []
  rhsBatch := []
  wf := dot_S32x1024x64_S64x64_S32x1024x64_2_0_01_1_n_n_wf
def dot_S32x1024x64_S32x1024x64_S32x1024x1024_2_2_1_1_0_0 : DotDims S32x1024x64 S32x1024x64 S32x1024x1024 where
  lhsContracting := [2]
  rhsContracting := [2]
  lhsNonContracting := [1]
  rhsNonContracting := [1]
  lhsBatch := [0]
  rhsBatch := [0]
  wf := dot_S32x1024x64_S32x1024x64_S32x1024x1024_2_2_1_1_0_0_wf
def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf

class Facts : Prop extends Facts₀ where

variable [Facts]
-- ==== Proof.Spec.lean ====
/-
  The graph-attention layer as ONE function of its arrays, on the extended reals.

  For a batch element b, with X_b the [1024, 64] slice of the input:
    P   = X_b · attW                                   (rows projected, [1024, 64])
    sc  = the column sums of a                          ([64])
    Z   = (P ∘ sc) · Pᵀ                                 (Z(n, m) = Σ_j P(n, j) · sc(j) · P(m, j), [1024, 1024])
    att = leaky(Z) off the diagonal, 0 on it            (leaky z = z when 0 ≤ z, slope · z otherwise)
    out = att · (X_b · W) + bias + X_b · selfW
  Everything is stated entry by entry over literal extents; the batch extent is a parameter so that the same
  function describes a block of batch elements and the whole array.

  Two laws live here. An entry of the result at batch element b reads X only at batch element b, so a block that
  agrees with the array on that slice gives the same entry (`outAt_congr`). And multiplying the scores by the mask
  `1 - [n = m]` before the leaky function gives the same entries as selecting 0 on the diagonal after it: on the
  diagonal the masked score is z · 0 = 0, which the leaky function fixes, and off it the mask is 1 (`masked_leaky`).
-/
import Idealize.ShloMosaic.PureOps.Ideal.Laws
import Idealize.ShloMosaic.Lib.ValueIdx
import Idealize.ShloMosaic.Lib.IdealHost

open scoped BigOperators

noncomputable section

namespace Cert.Gat

open Idealize.ShloMosaic Idealize.ShloMosaic.ValueIdx

/-- The slope of the leaky function: the float word both programs carry, never evaluated. -/
def slope : EReal := Ideal.ofBits .f32 0x3C23D70A#32

variable {B : Nat}

/-- `X_b · M` at row `n`, column `g`. -/
def proj (X : (⟨3, ![B, 1024, 64]⟩ : Shape).Idx → EReal) (M : (⟨2, ![64, 64]⟩ : Shape).Idx → EReal)
    (b : Fin B) (n : Fin 1024) (g : Fin 64) : EReal :=
  ∑ f : Fin 64, X (ix3 b n f) * M (ix2 f g)

/-- The sum of column `j` of a [64, 64] matrix. -/
def colsum (a : (⟨2, ![64, 64]⟩ : Shape).Idx → EReal) (j : Fin 64) : EReal :=
  ∑ i : Fin 64, a (ix2 i j)

/-- The score of rows `n` and `m`: the projected rows' product weighted by `sc`. -/
def score (X : (⟨3, ![B, 1024, 64]⟩ : Shape).Idx → EReal) (attW : (⟨2, ![64, 64]⟩ : Shape).Idx → EReal)
    (sc : Fin 64 → EReal) (b : Fin B) (n m : Fin 1024) : EReal :=
  ∑ j : Fin 64, (proj X attW b n j * sc j) * proj X attW b m j

/-- The leaky function: `z` where `0 ≤ z`, `slope · z` elsewhere. -/
def leaky (z : EReal) : EReal := Scalar.select (Ideal.cmp .oge z 0) z (slope * z)

/-- The attention weight: 0 on the diagonal, the leaky score off it. -/
def att (X : (⟨3, ![B, 1024, 64]⟩ : Shape).Idx → EReal) (attW : (⟨2, ![64, 64]⟩ : Shape).Idx → EReal)
    (sc : Fin 64 → EReal) (b : Fin B) (n m : Fin 1024) : EReal :=
  if n = m then 0 else leaky (score X attW sc b n m)

/-- The layer's result at batch element `b`, row `n`, column `g`. -/
def outAt (X : (⟨3, ![B, 1024, 64]⟩ : Shape).Idx → EReal) (attW W : (⟨2, ![64, 64]⟩ : Shape).Idx → EReal)
    (sc bias : Fin 64 → EReal) (selfW : (⟨2, ![64, 64]⟩ : Shape).Idx → EReal)
    (b : Fin B) (n : Fin 1024) (g : Fin 64) : EReal :=
  ((∑ m : Fin 1024, att X attW sc b n m * proj X W b m g) + bias g) + proj X selfW b n g

/-- The whole result array, from the argument arrays. -/
def out (X : (⟨3, ![32, 1024, 64]⟩ : Shape).Idx → EReal) (attW W a : (⟨2, ![64, 64]⟩ : Shape).Idx → EReal)
    (bias : (⟨1, ![64]⟩ : Shape).Idx → EReal) (selfW : (⟨2, ![64, 64]⟩ : Shape).Idx → EReal) :
    (⟨3, ![32, 1024, 64]⟩ : Shape).Idx → EReal :=
  fun i => outAt X attW W (colsum a) (fun g => bias (ix1 g)) selfW (i 0) (i 1) (i 2)

theorem out_apply (X : (⟨3, ![32, 1024, 64]⟩ : Shape).Idx → EReal) (attW W a : (⟨2, ![64, 64]⟩ : Shape).Idx → EReal)
    (bias : (⟨1, ![64]⟩ : Shape).Idx → EReal) (selfW : (⟨2, ![64, 64]⟩ : Shape).Idx → EReal)
    (b : Fin 32) (n : Fin 1024) (g : Fin 64) :
    out X attW W a bias selfW (ix3 b n g) = outAt X attW W (colsum a) (fun g => bias (ix1 g)) selfW b n g := rfl

/-- An entry at batch element `b` reads `X` only on that slice. -/
theorem outAt_congr {B' : Nat} (X : (⟨3, ![B, 1024, 64]⟩ : Shape).Idx → EReal)
    (X' : (⟨3, ![B', 1024, 64]⟩ : Shape).Idx → EReal) (attW W : (⟨2, ![64, 64]⟩ : Shape).Idx → EReal)
    (sc bias : Fin 64 → EReal) (selfW : (⟨2, ![64, 64]⟩ : Shape).Idx → EReal) (b : Fin B) (b' : Fin B')
    (h : ∀ (n : Fin 1024) (f : Fin 64), X (ix3 b n f) = X' (ix3 b' n f)) (n : Fin 1024) (g : Fin 64) :
    outAt X attW W sc bias selfW b n g = outAt X' attW W sc bias selfW b' n g := by
  simp only [outAt, att, score, proj, h]

/-- Masking the score by `1 - [diagonal]` before the leaky function is selecting 0 on the diagonal after it. -/
theorem masked_leaky (z : EReal) (e : BitVec 1) :
    Scalar.select (Ideal.cmp .oge (z * (Ideal.ofBits .f32 0x3F800000#32 - (((e.toNat : ℝ)) : EReal))) (Ideal.ofBits .f32 0x00000000#32))
        (z * (Ideal.ofBits .f32 0x3F800000#32 - (((e.toNat : ℝ)) : EReal)))
        (slope * (z * (Ideal.ofBits .f32 0x3F800000#32 - (((e.toNat : ℝ)) : EReal))))
      = Scalar.select e 0 (leaky z) := by
  rw [Ideal.ofBits_one_f32, Ideal.ofBits_zero_f32]
  rcases BitVec.eq_zero_or_eq_one e with h | h <;> subst h
  · have h1 : ((1 : EReal) - (((0#1 : BitVec 1).toNat : ℝ) : EReal)) = 1 := by simp
    rw [h1, mul_one, select_zero]
    rfl
  · have h1 : ((1 : EReal) - (((1#1 : BitVec 1).toNat : ℝ) : EReal)) = 0 := by
      have e1 : (((1#1 : BitVec 1).toNat : ℝ) : EReal) = ((1 : ℝ) : EReal) := by simp
      rw [e1, show (1 : EReal) = ((1 : ℝ) : EReal) from rfl, ← EReal.coe_sub, sub_self]
      rfl
    rw [h1, mul_zero, mul_zero, select_one]
    simp [Scalar.select, Ideal.cmp]

end Cert.Gat

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibMatmulNT.lean ====
/-
  The matrix product that contracts the LAST axis of both operands ("md,nd->mn": rows of the left operand against rows
  of the right one, no transpose materialized), into a zero accumulator, read at an index on the extended reals:
  entry (i, j) is Σ_k l(i, k) · r(j, k). Stated for any extents M, K, N.
-/
import Idealize.ShloMosaic.PureOps.Ideal.Laws
import Idealize.ShloMosaic.Lib.ValueIdx
import Idealize.ShloMosaic.Lib.Pipeline.Value

noncomputable section

open scoped BigOperators

namespace Cert.MatOpsNT

open Idealize.ShloMosaic Idealize.ShloMosaic.ValueIdx

variable {M K N : Nat}

/-- The contraction index set of the product "md,nd->mn" is `Fin K`. -/
abbrev ntContr (M K N : Nat) : (DotDims.transposedRhs M K N).contr.Idx ≃ Fin K :=
  contrEquiv1 (DotDims.transposedRhs M K N) K rfl rfl

/-- The left operand's index at output `(i, j)` and contraction coordinate `k` is `(i, k)`. -/
theorem nt_lhsIdx (i : Fin M) (j : Fin N) (k : Fin K) :
    (DotDims.transposedRhs M K N).lhsIdx (ix2 i j) ((ntContr M K N).symm k) = ix2 i k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 i j) _).trans hk

/-- The right operand's index at output `(i, j)` and contraction coordinate `k` is `(j, k)`. -/
theorem nt_rhsIdx (i : Fin M) (j : Fin N) (k : Fin K) :
    (DotDims.transposedRhs M K N).rhsIdx (ix2 i j) ((ntContr M K N).symm k) = ix2 j k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 i j) _).trans hk

/-- The product "md,nd->mn" into the zero accumulator at `(i, j)` is the sum over `k` of `l(i, k) · r(j, k)`. -/
theorem matmul_nt_zero_apply {φ₁ φ₂ : FTy} (prec : Option ContractPrecision) (l : FVec Ideal ⟨2, ![M, K]⟩ φ₁)
    (r : FVec Ideal ⟨2, ![N, K]⟩ φ₂) (i : Fin M) (j : Fin N) :
    matmul (F := Ideal) (DotDims.transposedRhs M K N) prec l r (constant ⟨2, ![M, N]⟩ .f32 0x00000000#32) (ix2 i j)
      = ∑ k : Fin K, l (ix2 i k) * r (ix2 j k) := by
  simp only [matmul]
  rw [Ideal.matmul_constant_zero_apply]
  rw [← Equiv.sum_comp (ntContr M K N).symm]
  refine Finset.sum_congr rfl fun k _ => ?_
  rw [nt_lhsIdx, nt_rhsIdx]

end Cert.MatOpsNT

end
-- ==== Proof.KernelElem.lean ====
/-
  One batch element's work in the kernel body, named and read entry by entry.

  The body handles its eight batch elements one after the other with the same operations: the element's [1024, 64]
  rows `x` are projected by the three weight matrices (matrix products into zero), the attention projection is
  weighted column by column with `sc` and multiplied against itself along the feature axis to give the [1024, 1024]
  scores, the scores pass the leaky function and are zeroed where the diagonal bit is set, and the result row is
  `att · (x·W) + bias + x·selfW`. `elem` is that chain as one term; the eight store payloads of the body are
  instances of it (the same term, so by unfolding), and at the ideal values its entry (0, n, g) is the
  specification's `outAt` of the one-element batch `x`.
-/
import proofs.«121971_j22273700397226_2_alg».proof.Proof.Gen.KernelIdeal.Skeleton
import proofs.«121971_j22273700397226_2_alg».proof.Proof.Spec
import proofs.«121971_j22273700397226_2_alg».proof.Proof.LibMatmul
import proofs.«121971_j22273700397226_2_alg».proof.Proof.LibMatmulNT
import Idealize.ShloMosaic.Lib.ValueLayout
import Idealize.ShloMosaic.Lib.Pipeline.Value

open scoped BigOperators

noncomputable section

namespace Cert.KernelIdeal.Elem

open Cert.KernelIdeal Cert.KernelIdeal.Gen Idealize.ShloMosaic Idealize.ShloMosaic.ValueIdx

variable {F : FTy → Type} [FloatOps F]

/-- The element's block `[1, 1024, 64]` viewed as its `[1024, 64]` rows. -/
def rows (x : Vec F S1x1024x64 .f32) : FVec F S1024x64 .f32 :=
  shapeCast S1024x64 x shapeCasts_S1x1024x64_S1024x64

/-- Rows times a `[64, 64]` weight matrix, into zero. -/
def rowsTimes (p : FVec F S1024x64 .f32) (w : Vec F S64x64 .f32) : FVec F S1024x64 .f32 :=
  matmul dot_S1024x64_S64x64_S1024x64_1_0_0_1_n_n (some .fp32) p w (constant S1024x64 .f32 0x00000000#32)

/-- The projected rows weighted column by column. -/
def weighted (p : FVec F S1024x64 .f32) (sc : FVec F S64 .f32) : FVec F S1024x64 .f32 :=
  mulf p (broadcastTo S1024x64 (shapeCast S1x64 sc shapeCasts_S64_S1x64) broadcasts_S1x64_S1024x64)

/-- The scores: weighted rows against the rows, contracting the feature axis of both. -/
def scores (p : FVec F S1024x64 .f32) (sc : FVec F S64 .f32) : FVec F S1024x1024 .f32 :=
  matmul dot_S1024x64_S1024x64_S1024x1024_1_1_0_0_n_n (some .fp32) (weighted p sc) p (constant S1024x1024 .f32 0x00000000#32)

/-- The leaky function of the scores, zeroed where the bit `d` is set. -/
def weights (z : FVec F S1024x1024 .f32) (d : IVec S1024x1024 1) : FVec F S1024x1024 .f32 :=
  select d (broadcast S1024x1024 (Scalar.ofBits .f32 0x00000000#32))
    (select (cmpf .oge z (broadcast S1024x1024 (Scalar.ofBits .f32 0x00000000#32))) z
      (mulf (broadcast S1024x1024 (Scalar.ofBits .f32 0x3C23D70A#32)) z))

/-- One batch element's result block. -/
def elem (attW W : Vec F S64x64 .f32) (bias : FVec F S1x64 .f32) (selfW : Vec F S64x64 .f32) (sc : FVec F S64 .f32)
    (d : IVec S1024x1024 1) (x : Vec F S1x1024x64 .f32) : FVec F S1x1024x64 .f32 :=
  shapeCast S1x1024x64
    (addf (addf (matmul dot_S1024x1024_S1024x64_S1024x64_1_0_0_1_n_n (some .fp32)
        (weights (scores (rowsTimes (rows x) attW) sc) d) (rowsTimes (rows x) W) (constant S1024x64 .f32 0x00000000#32))
      (broadcastTo S1024x64 bias broadcasts_S1x64_S1024x64)) (rowsTimes (rows x) selfW))
    shapeCasts_S1024x64_S1x1024x64

/-! ## The eight store payloads are this term -/

theorem pay5_eq (v0 v1 v2 : Vec F S64x64 .f32) (v3 : Vec F S1x64 .f32) (v5 : Vec F S64x64 .f32) (x : Vec F S1x1024x64 .f32) :
    k0_pay5 v0 v1 v2 v3 v5 x = elem v0 v1 (k0_pay2 v3) v5 (k0_pay3 v2) k0_pay4 x := rfl
theorem pay6_eq (v0 v1 : Vec F S64x64 .f32) (v4 : FVec F S1x64 .f32) (v5 : Vec F S64x64 .f32) (v6 : FVec F S64 .f32)
    (v9 : IVec S1024x1024 1) (x : Vec F S1x1024x64 .f32) : k0_pay6 v0 v1 v4 v5 v6 v9 x = elem v0 v1 v4 v5 v6 v9 x := rfl
theorem pay9_eq (v0 v1 : Vec F S64x64 .f32) (v4 : FVec F S1x64 .f32) (v5 : Vec F S64x64 .f32) (v6 : FVec F S64 .f32)
    (v9 : IVec S1024x1024 1) (x : Vec F S1x1024x64 .f32) :
    k0_pay9 v1 v4 v5 v9 (k0_pay7 x) (k0_pay8 v0 v6 x) = elem v0 v1 v4 v5 v6 v9 x := rfl
theorem pay10_eq (v0 v1 : Vec F S64x64 .f32) (v4 : FVec F S1x64 .f32) (v5 : Vec F S64x64 .f32) (v6 : FVec F S64 .f32)
    (v9 : IVec S1024x1024 1) (x : Vec F S1x1024x64 .f32) : k0_pay10 v0 v1 v4 v5 v6 v9 x = elem v0 v1 v4 v5 v6 v9 x := rfl
theorem pay11_eq (v0 v1 : Vec F S64x64 .f32) (v4 : FVec F S1x64 .f32) (v5 : Vec F S64x64 .f32) (v6 : FVec F S64 .f32)
    (v9 : IVec S1024x1024 1) (x : Vec F S1x1024x64 .f32) : k0_pay11 v0 v1 v4 v5 v6 v9 x = elem v0 v1 v4 v5 v6 v9 x := rfl
theorem pay14_eq (v0 v1 : Vec F S64x64 .f32) (v4 : FVec F S1x64 .f32) (v5 : Vec F S64x64 .f32) (v6 : FVec F S64 .f32)
    (v9 : IVec S1024x1024 1) (x : Vec F S1x1024x64 .f32) :
    k0_pay14 v1 v4 v5 (k0_pay12 x) (k0_pay13 v0 v6 v9 x) = elem v0 v1 v4 v5 v6 v9 x := rfl
theorem pay15_eq (v0 v1 : Vec F S64x64 .f32) (v4 : FVec F S1x64 .f32) (v5 : Vec F S64x64 .f32) (v6 : FVec F S64 .f32)
    (v9 : IVec S1024x1024 1) (x : Vec F S1x1024x64 .f32) : k0_pay15 v0 v1 v4 v5 v6 v9 x = elem v0 v1 v4 v5 v6 v9 x := rfl
theorem pay1_eq (v0 v1 : Vec F S64x64 .f32) (v4 : FVec F S1x64 .f32) (v5 : Vec F S64x64 .f32) (v6 : FVec F S64 .f32)
    (v9 : IVec S1024x1024 1) (x : Vec F S1x1024x64 .f32) : k0_pay1 v0 v1 v4 v5 v6 v9 x = elem v0 v1 v4 v5 v6 v9 x := rfl

end Cert.KernelIdeal.Elem

end
-- ==== Proof.KernelElemValue.lean ====
/-
  One batch element's result block, entry by entry, at the ideal values.

  Each stage of `elem` is read at an index: the block's rows; a product of rows with a weight matrix as the sum over
  the 64 features; the column weighting; the scores as the sum over the 64 projected features of
  (P(n, j) · sc(j)) · P(m, j); the attention weights as 0 where the diagonal bit is set and the leaky function of the
  score elsewhere; and the result as att · (x·W) + bias + x·selfW. With a bit that is set exactly on the diagonal
  this is the specification's `outAt` for the one-element batch `x`. The body's own column sums and diagonal bit are
  read likewise: the reduction over the row axis is the column sum, and the comparison of the two coordinate words is
  set exactly where the coordinates agree (both are below 2³²).
-/
import proofs.«121971_j22273700397226_2_alg».proof.Proof.KernelElem
import Idealize.ShloMosaic.Lib.Affine

open scoped BigOperators

noncomputable section

namespace Cert.KernelIdeal.Elem

open Cert.KernelIdeal Cert.KernelIdeal.Gen Idealize.ShloMosaic Idealize.ShloMosaic.ValueIdx

theorem rows_apply (x : Vec Ideal S1x1024x64 .f32) (n : Fin 1024) (f : Fin 64) :
    rows x (ix2 n f) = x (ix3 (0 : Fin 1) n f) :=
  shapeCast_1ab_ab_apply x shapeCasts_S1x1024x64_S1024x64 n f

theorem rowsTimes_apply (p : FVec Ideal S1024x64 .f32) (w : Vec Ideal S64x64 .f32) (n : Fin 1024) (g : Fin 64) :
    rowsTimes p w (ix2 n g) = ∑ f : Fin 64, p (ix2 n f) * w (ix2 f g) :=
  Cert.MatOps.matmul_plain_zero_apply (M := 1024) (K := 64) (N := 64) (φ₁ := .f32) (φ₂ := .f32) (some .fp32) p w n g

theorem weighted_apply (p : FVec Ideal S1024x64 .f32) (sc : FVec Ideal S64 .f32) (n : Fin 1024) (j : Fin 64) :
    weighted p sc (ix2 n j) = p (ix2 n j) * sc (ix1 j) := by
  unfold weighted
  rw [mulf_apply]
  refine congrArg (p (ix2 n j) * ·) ?_
  refine (broadcastTo_1b_ab_apply _ broadcasts_S1x64_S1024x64 n j).trans ?_
  exact shapeCast_a_1a_apply sc shapeCasts_S64_S1x64 0 j

theorem scores_apply (p : FVec Ideal S1024x64 .f32) (sc : FVec Ideal S64 .f32) (n m : Fin 1024) :
    scores p sc (ix2 n m) = ∑ j : Fin 64, (p (ix2 n j) * sc (ix1 j)) * p (ix2 m j) := by
  refine (Cert.MatOpsNT.matmul_nt_zero_apply (M := 1024) (K := 64) (N := 1024) (φ₁ := .f32) (φ₂ := .f32) (some .fp32)
    (weighted p sc) p n m).trans ?_
  exact Finset.sum_congr rfl fun j _ => congrArg (· * p (ix2 m j)) (weighted_apply p sc n j)

theorem weights_apply (z : FVec Ideal S1024x1024 .f32) (d : IVec S1024x1024 1) (n m : Fin 1024) :
    weights z d (ix2 n m) = Scalar.select (d (ix2 n m)) 0 (Cert.Gat.leaky (z (ix2 n m))) := by
  unfold weights Cert.Gat.leaky Cert.Gat.slope
  rw [select_apply, select_apply, cmpf_apply, mulf_apply, broadcast_apply, broadcast_apply]
  show Scalar.select (d (ix2 n m)) (Ideal.ofBits .f32 0x00000000#32)
    (Scalar.select (Ideal.cmp .oge (z (ix2 n m)) (Ideal.ofBits .f32 0x00000000#32)) (z (ix2 n m))
      (Ideal.ofBits .f32 0x3C23D70A#32 * z (ix2 n m))) = _
  rw [Ideal.ofBits_zero_f32]

/-- A bit set exactly on the diagonal selects 0 there and the other value elsewhere. -/
theorem select_diag (e : BitVec 1) (n m : Fin 1024) (he : e = 1#1 ↔ n = m) (v : EReal) :
    Scalar.select e 0 v = if n = m then 0 else v := by
  by_cases h : n = m
  · rw [if_pos h, he.mpr h, select_one]
  · rw [if_neg h, eq_zero_of_ne_one (fun h' => h (he.mp h')), select_zero]

theorem elem_apply (attW W : Vec Ideal S64x64 .f32) (bias : FVec Ideal S1x64 .f32) (selfW : Vec Ideal S64x64 .f32)
    (sc : FVec Ideal S64 .f32) (d : IVec S1024x1024 1) (hd : ∀ n m : Fin 1024, d (ix2 n m) = 1#1 ↔ n = m)
    (x : Vec Ideal S1x1024x64 .f32) (u : Fin 1) (n : Fin 1024) (g : Fin 64) :
    elem attW W bias selfW sc d x (ix3 u n g)
      = Cert.Gat.outAt (B := 1) x attW W (fun j => sc (ix1 j)) (fun g => bias (ix2 (0 : Fin 1) g)) selfW 0 n g := by
  unfold elem
  refine (shapeCast_ab_1ab_apply _ shapeCasts_S1024x64_S1x1024x64 u n g).trans ?_
  rw [addf_apply, addf_apply]
  unfold Cert.Gat.outAt
  refine congr (congrArg HAdd.hAdd (congr (congrArg HAdd.hAdd ?_) ?_)) ?_
  · refine (Cert.MatOps.matmul_plain_zero_apply (M := 1024) (K := 1024) (N := 64) (φ₁ := .f32) (φ₂ := .f32) (some .fp32) _ _ n g).trans ?_
    refine Finset.sum_congr rfl fun m _ => ?_
    rw [weights_apply, scores_apply, rowsTimes_apply, select_diag _ n m (hd n m)]
    unfold Cert.Gat.att Cert.Gat.score Cert.Gat.proj
    simp only [rowsTimes_apply, rows_apply]
  · exact broadcastTo_1b_ab_apply bias broadcasts_S1x64_S1024x64 n g
  · rw [rowsTimes_apply]
    unfold Cert.Gat.proj
    simp only [rows_apply]

/-! ## The body's column sums, bias row and diagonal bit -/

theorem pay2_eq_self (v3 : Vec Ideal S1x64 .f32) : k0_pay2 v3 = v3 :=
  shapeCast_self v3 shapeCasts_S1x64_S1x64

theorem pay3_apply (a : Vec Ideal S64x64 .f32) (j : Fin 64) : k0_pay3 a (ix1 j) = Cert.Gat.colsum a j := by
  unfold k0_pay3 Cert.Gat.colsum
  refine (Ideal.multiReduction_add_single (φ := .f32) a 0x00000000#32 reduces_S64x64_S64 (.inl rfl) rfl (ix1 j)).trans ?_
  show ∑ k : Fin 64, a (reduces_S64x64_S64.lift (ix1 j) k) = _
  refine Finset.sum_congr rfl fun k _ => congrArg a (funext fun ax => Fin.ext ?_)
  match ax with
  | ⟨0, _⟩ => rfl
  | ⟨1, _⟩ => rfl

theorem pay4_apply (n m : Fin 1024) : k0_pay4 (ix2 n m) = 1#1 ↔ n = m := by
  unfold k0_pay4
  show IntOp.cmpi .eq (iota .tc S1024x1024 32 [0] iota_S1024x1024_d0_w32 (ix2 n m)) (iota .tc S1024x1024 32 [1] iota_S1024x1024_d1_w32 (ix2 n m)) = 1#1 ↔ _
  rw [iota_single_apply, iota_single_apply, IntOp.cmpi_eq]
  show BitVec.ofNat 32 n.val = BitVec.ofNat 32 m.val ↔ _
  constructor
  · intro h
    have h2 := congrArg BitVec.toNat h
    simp only [BitVec.toNat_ofNat] at h2
    have hn := n.isLt
    have hm := m.isLt
    exact Fin.ext (by omega)
  · intro h; rw [h]

end Cert.KernelIdeal.Elem

end
-- ==== Proof.KernelBlock.lean ====
/-
  What the body leaves in the output block of a grid point, as one function of the point's input blocks.

  The body writes the [8, 1024, 64] output block by eight stores, one per batch element `e`, each through the
  rectangle of rows (e, ·, ·) and each holding `elem` of the weights and of the input block's rows (e, ·, ·). So the
  block, read at (e, n, g), is the specification's entry for the eight-element batch that the input block is: the
  store for `e` gives the entry of the one-element batch made of the block's slice `e`, and an entry at batch element
  `e` reads the input only on that slice. The eight rectangles tile the block, so every index is under one of them.
-/
import proofs.«121971_j22273700397226_2_alg».proof.Proof.Gen.KernelIdeal.Frame
import proofs.«121971_j22273700397226_2_alg».proof.Proof.KernelElemValue

open scoped BigOperators

noncomputable section

namespace Cert.KernelIdeal.Block

open Cert.KernelIdeal Cert.KernelIdeal.Gen Cert.KernelIdeal.Elem Idealize.ShloMosaic Idealize.ShloMosaic.ValueIdx

/-- The output block of a point, entry by entry, from the point's input blocks: the eight-element batch `x0`,
    the weights `x1` (attention), `x2`, `x5` (self), the matrix `x3` whose column sums weight the scores, the bias row `x4`. -/
def G8 (x0 : Vec Ideal S8x1024x64 .f32) (x1 x2 x3 : Vec Ideal S64x64 .f32) (x4 : Vec Ideal S1x64 .f32)
    (x5 : Vec Ideal S64x64 .f32) : S8x1024x64.Idx → EReal :=
  fun i => Cert.Gat.outAt (B := 8) x0 x1 x2 (Cert.Gat.colsum x3) (fun g => x4 (ix2 (0 : Fin 1) g)) x5 (i 0) (i 1) (i 2)

theorem hz2 : (![0, 0] : Fin 2 → Nat) = fun _ => 0 := funext fun a => by fin_cases a <;> rfl

/-- The store for batch element `o`: its payload at a local index is `G8` at the index the rectangle places it at. -/
theorem piece (o : Nat) (ho : o < 8) (inb : ∀ a, (![o, 0, 0] : Fin 3 → Nat) a + S1x1024x64.size a ≤ S8x1024x64.size a)
    (x0 : Vec Ideal S8x1024x64 .f32) (x1 x2 x3 : Vec Ideal S64x64 .f32) (x4 : Vec Ideal S1x64 .f32)
    (x5 : Vec Ideal S64x64 .f32) (y : S1x1024x64.Idx) :
    elem (View.ld x1 r0_0) (View.ld x2 r0_0) (k0_pay2 (View.ld x4 r0_1)) (View.ld x5 r0_0) (k0_pay3 (View.ld x3 r0_0)) k0_pay4
        (View.ld x0 (Rect.unit (s := S8x1024x64) ![o, 0, 0] S1x1024x64.size inb)) y
      = G8 x0 x1 x2 x3 x4 x5 ((Rect.unit (s := S8x1024x64) ![o, 0, 0] S1x1024x64.size inb).emb y) := by
  obtain ⟨u, n, g, rfl⟩ : ∃ (u : Fin 1) (n : Fin 1024) (g : Fin 64), y = ix3 u n g := ⟨y 0, y 1, y 2, eq_ix3 y⟩
  have hu : u.val = 0 := by omega
  rw [View.ld_unit_zero (S := S64x64) hz2, View.ld_unit_zero (S := S64x64) hz2, View.ld_unit_zero (S := S64x64) hz2,
    View.ld_unit_zero (S := S64x64) hz2, View.ld_unit_zero (S := S1x64) hz2, pay2_eq_self]
  refine (elem_apply x1 x2 x4 x5 (k0_pay3 x3) k0_pay4 pay4_apply _ u n g).trans ?_
  have hemb : (Rect.unit (s := S8x1024x64) ![o, 0, 0] S1x1024x64.size inb).emb (ix3 u n g) = ix3 (⟨o, ho⟩ : Fin 8) n g := by
    funext a
    refine Fin.ext ?_
    match a with
    | ⟨0, _⟩ => show o + 1 * u.val = o; omega
    | ⟨1, _⟩ => show 0 + 1 * n.val = n.val; omega
    | ⟨2, _⟩ => show 0 + 1 * g.val = g.val; omega
  rw [hemb]
  show _ = Cert.Gat.outAt (B := 8) x0 x1 x2 (Cert.Gat.colsum x3) (fun g => x4 (ix2 (0 : Fin 1) g)) x5 (⟨o, ho⟩ : Fin 8) n g
  have hsc : (fun j => k0_pay3 x3 (ix1 j)) = Cert.Gat.colsum x3 := funext fun j => pay3_apply x3 j
  rw [hsc]
  refine Cert.Gat.outAt_congr _ x0 x1 x2 _ _ x5 (0 : Fin 1) (⟨o, ho⟩ : Fin 8) (fun n' f => ?_) n g
  show x0 ((Rect.unit (s := S8x1024x64) ![o, 0, 0] S1x1024x64.size inb).idx (ix3 (0 : Fin 1) n' f)) = _
  refine congrArg x0 (funext fun a => Fin.ext ?_)
  match a with
  | ⟨0, _⟩ => show o + 1 * 0 = o; omega
  | ⟨1, _⟩ => show 0 + 1 * n'.val = n'.val; omega
  | ⟨2, _⟩ => show 0 + 1 * f.val = f.val; omega

/-- The whole block the body leaves is `G8` of the point's input blocks. -/
theorem out_eq (x0 : Vec Ideal S8x1024x64 .f32) (x1 x2 x3 : Vec Ideal S64x64 .f32) (x4 : Vec Ideal S1x64 .f32)
    (x5 : Vec Ideal S64x64 .f32) : out0_6 x0 x1 x2 x3 x4 x5 = G8 x0 x1 x2 x3 x4 x5 := by
  funext y
  unfold out0_6
  refine View.canon_apply_of_pieces (Val := Elt Ideal) (S := S8x1024x64) (e := .f32) (G8 x0 x1 x2 x3 x4 x5) _ (fun p hp x => ?_) y (cover0_6 _ _ _ _ _ _ _ _ y)
  simp only [List.mem_cons, List.mem_nil_iff, or_false] at hp
  rcases hp with rfl | rfl | rfl | rfl | rfl | rfl | rfl | rfl
  · exact (congrFun (pay1_eq _ _ _ _ _ _ _) x).trans (piece 7 (by decide) _ x0 x1 x2 x3 x4 x5 x)
  · exact (congrFun (pay15_eq _ _ _ _ _ _ _) x).trans (piece 6 (by decide) _ x0 x1 x2 x3 x4 x5 x)
  · exact (congrFun (pay14_eq _ _ _ _ _ _ _) x).trans (piece 5 (by decide) _ x0 x1 x2 x3 x4 x5 x)
  · exact (congrFun (pay11_eq _ _ _ _ _ _ _) x).trans (piece 4 (by decide) _ x0 x1 x2 x3 x4 x5 x)
  · exact (congrFun (pay10_eq _ _ _ _ _ _ _) x).trans (piece 3 (by decide) _ x0 x1 x2 x3 x4 x5 x)
  · exact (congrFun (pay9_eq _ _ _ _ _ _ _) x).trans (piece 2 (by decide) _ x0 x1 x2 x3 x4 x5 x)
  · exact (congrFun (pay6_eq _ _ _ _ _ _ _) x).trans (piece 1 (by decide) _ x0 x1 x2 x3 x4 x5 x)
  · exact (congrFun (pay5_eq _ _ _ _ _ _) x).trans (piece 0 (by decide) _ x0 x1 x2 x3 x4 x5 x)

/-- A block that holds batch elements 8T … 8T+7 of the array `X`, beside the whole weights and the bias as a row,
    has for `G8` the array-level result at those batch elements. -/
theorem G8_of_array (X : (⟨3, ![32, 1024, 64]⟩ : Shape).Idx → EReal) (attW W a : (⟨2, ![64, 64]⟩ : Shape).Idx → EReal)
    (bias : (⟨1, ![64]⟩ : Shape).Idx → EReal) (selfW : (⟨2, ![64, 64]⟩ : Shape).Idx → EReal)
    (x0 : Vec Ideal S8x1024x64 .f32) (x1 x2 x3 : Vec Ideal S64x64 .f32) (x4 : Vec Ideal S1x64 .f32)
    (x5 : Vec Ideal S64x64 .f32) (T : Nat) (hT : T < 4)
    (h0 : ∀ (e : Fin 8) (n : Fin 1024) (f : Fin 64), x0 (ix3 e n f) = X (ix3 (⟨8 * T + e.val, by omega⟩ : Fin 32) n f))
    (h1 : x1 = attW) (h2 : x2 = W) (h3 : x3 = a) (h4 : ∀ g : Fin 64, x4 (ix2 (0 : Fin 1) g) = bias (ix1 g)) (h5 : x5 = selfW)
    (e : Fin 8) (n : Fin 1024) (g : Fin 64) :
    G8 x0 x1 x2 x3 x4 x5 (ix3 e n g)
      = Cert.Gat.out X attW W a bias selfW (ix3 (⟨8 * T + e.val, by omega⟩ : Fin 32) n g) := by
  subst h1 h2 h3 h5
  rw [Cert.Gat.out_apply]
  show Cert.Gat.outAt (B := 8) x0 x1 x2 (Cert.Gat.colsum x3) (fun g => x4 (ix2 (0 : Fin 1) g)) x5 e n g = _
  rw [show (fun g => x4 (ix2 (0 : Fin 1) g)) = fun g => bias (ix1 g) from funext h4]
  exact Cert.Gat.outAt_congr x0 X x1 x2 _ _ x5 e _ (fun n' f => h0 e n' f) n g

end Cert.KernelIdeal.Block

end
-- ==== Proof.KernelValue.lean ====
/-
  The kernel's result array after the run, as the specification's function of the argument arrays.

  The grid has four points; point t stages batch elements 8t … 8t+7 of the input (block index (t, 0, 0) of
  [8, 1024, 64] blocks), the four weight matrices whole (block index (0, 0) at every point), the bias as the one row
  that the reshape before the launch made of it, and writes back block (t, 0, 0) of the result. The block written at t is
  the specification's result at batch elements 8t … 8t+7 (the block-level function of the staged blocks, read through
  what the blocks are of the arrays), that is, block t of the whole result; the four blocks cover the array, batch
  element b lying in block b / 8; so the array ends as the specification's result of the arguments as launched.
-/
import proofs.«121971_j22273700397226_2_alg».proof.Proof.Gen.KernelIdeal.Value
import proofs.«121971_j22273700397226_2_alg».proof.Proof.KernelBlock
import Idealize.ShloMosaic.Lib.StableHlo.Run

open scoped BigOperators

noncomputable section

namespace Cert.KernelIdeal.ArrayValue

open Cert.KernelIdeal Cert.KernelIdeal.Gen Cert.KernelIdeal.Value Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array from the arrays as the region finds them. -/
def Gout (c : Dev nD) : S32x1024x64.Idx → EReal :=
  Cert.Gat.out (V m c main_arg0) (V m c main_arg3) (V m c main_arg2) (V m c main_arg4) (V m c main_arg5) (V m c main_arg6)

/-- The block index maps over the grid: the input and the result move with the point along the batch axis, the
    weights and the bias row stay at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem t_lt (t : Fin cfg0.N) : t.val < 4 := lt_of_lt_of_eq t.isLt N_0

/-! ## What each staged block is of its array -/

theorem blk0 (c : Dev nD) (t : Fin cfg0.N) (e : Fin 8) (n : Fin 1024) (f : Fin 64) :
    iblk m c 0 t (ix3 e n f) = V m c main_arg0 (ix3 (⟨8 * t.val + e.val, by have := t_lt t; omega⟩ : Fin 32) n f) := by
  obtain ⟨e0, e1, e2, -⟩ := idx_facts t
  show V m c main_arg0 (((cfg0.win 0).blk t).view.emb (ix3 e n f)) = _
  refine congrArg (V m c main_arg0) (funext fun a => Fin.ext ?_)
  match a with
  | ⟨0, _⟩ => show win0_0.index t (0 : Fin 3) * 8 + 1 * e.val = 8 * t.val + e.val; omega
  | ⟨1, _⟩ => show win0_0.index t (1 : Fin 3) * 1024 + 1 * n.val = n.val; omega
  | ⟨2, _⟩ => show win0_0.index t (2 : Fin 3) * 64 + 1 * f.val = f.val; omega

theorem blk1 (c : Dev nD) (t : Fin cfg0.N) : (iblk m c 1 t : S64x64.Idx → EReal) = V m c main_arg3 := by
  obtain ⟨-, -, -, e0, e1, -⟩ := idx_facts t
  funext y
  show V m c main_arg3 (((cfg0.win 1).blk t).view.emb y) = V m c main_arg3 y
  refine congrArg (V m c main_arg3) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem blk2 (c : Dev nD) (t : Fin cfg0.N) : (iblk m c 2 t : S64x64.Idx → EReal) = V m c main_arg2 := by
  obtain ⟨-, -, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem blk3 (c : Dev nD) (t : Fin cfg0.N) : (iblk m c 3 t : S64x64.Idx → EReal) = V m c main_arg4 := by
  obtain ⟨-, -, -, -, -, -, -, e0, e1, -⟩ := idx_facts t
  funext y
  show V m c main_arg4 (((cfg0.win 3).blk t).view.emb y) = V m c main_arg4 y
  refine congrArg (V m c main_arg4) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk5 (c : Dev nD) (t : Fin cfg0.N) : (iblk m c 5 t : S64x64.Idx → EReal) = V m c main_arg6 := by
  obtain ⟨-, -, -, -, -, -, -, -, -, -, -, e0, e1, -⟩ := idx_facts t
  funext y
  show V m c main_arg6 (((cfg0.win 5).blk t).view.emb y) = V m c main_arg6 y
  refine congrArg (V m c main_arg6) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- The bias row the region finds is the bias vector laid out as one row. -/
theorem V_bias (c : Dev nD) :
    (V m c main_v0 : S1x64.Idx → EReal) = shapeCast S1x64 (m ((c : Thread nD τ).loc main_arg5)) shapeCasts_S64_S1x64 := by
  dsimp only [Gen.V, Gen.hostOps0]
  after_results
  rfl

theorem blk4 (c : Dev nD) (t : Fin cfg0.N) (g : Fin 64) :
    iblk m c 4 t (ix2 (0 : Fin 1) g) = V m c main_arg5 (ix1 g) := by
  obtain ⟨-, -, -, -, -, -, -, -, -, e0, e1, -⟩ := idx_facts t
  have h : iblk m c 4 t (ix2 (0 : Fin 1) g) = (V m c main_v0 : S1x64.Idx → EReal) (ix2 (0 : Fin 1) g) := by
    show V m c main_v0 (((cfg0.win 4).blk t).view.emb (ix2 (0 : Fin 1) g)) = V m c main_v0 (ix2 (0 : Fin 1) g)
    refine congrArg (V m c main_v0) (funext fun a => Fin.ext ?_)
    match a with
    | ⟨0, _⟩ => show win0_4.index t (0 : Fin 2) * 1 + 1 * 0 = 0; omega
    | ⟨1, _⟩ => show win0_4.index t (1 : Fin 2) * 64 + 1 * g.val = g.val; omega
  rw [h, V_bias, V_main_arg5]
  exact shapeCast_a_1a_apply _ shapeCasts_S64_S1x64 0 g

/-! ## The block a point writes back, and the whole array -/

/-- What point `t` writes back is block `t` of the result array. -/
theorem flushed_eq (c : Dev nD) (t : Fin cfg0.N) :
    (dats m 0 c).flushed 6 t = ((cfg0.win 6).blk t).view.read (Elt Ideal) (Gout m c) := by
  rw [flushed6]
  funext j
  obtain ⟨e, n, g, rfl⟩ : ∃ (e : Fin 8) (n : Fin 1024) (g : Fin 64), j = ix3 e n g := ⟨j 0, j 1, j 2, eq_ix3 j⟩
  have ht := t_lt t
  obtain ⟨-, -, -, -, -, -, -, -, -, -, -, -, -, e0, e1, e2⟩ := idx_facts t
  have hemb : ((cfg0.win 6).blk t).view.emb (ix3 e n g) = ix3 (⟨8 * t.val + e.val, by omega⟩ : Fin 32) n g := by
    funext a
    refine Fin.ext ?_
    match a with
    | ⟨0, _⟩ => show win0_6.index t (0 : Fin 3) * 8 + 1 * e.val = 8 * t.val + e.val; omega
    | ⟨1, _⟩ => show win0_6.index t (1 : Fin 3) * 1024 + 1 * n.val = n.val; omega
    | ⟨2, _⟩ => show win0_6.index t (2 : Fin 3) * 64 + 1 * g.val = g.val; omega
  show out0_6 (iblk m c 0 t) (iblk m c 1 t) (iblk m c 2 t) (iblk m c 3 t) (iblk m c 4 t) (iblk m c 5 t) (ix3 e n g)
    = Gout m c (((cfg0.win 6).blk t).view.emb (ix3 e n g))
  rw [hemb]
  refine (congrFun (out_eq (iblk m c 0 t) (iblk m c 1 t) (iblk m c 2 t) (iblk m c 3 t) (iblk m c 4 t) (iblk m c 5 t)) _).trans ?_
  exact G8_of_array (V m c main_arg0) (V m c main_arg3) (V m c main_arg2) (V m c main_arg4) (V m c main_arg5) (V m c main_arg6)
    (iblk m c 0 t) (iblk m c 1 t) (iblk m c 2 t) (iblk m c 3 t) (iblk m c 4 t) (iblk m c 5 t) t.val ht
    (blk0 m c t) (blk1 m c t) (blk2 m c t) (blk3 m c t) (blk4 m c t) (blk5 m c t) e n g

/-- An index of the result array is in point `t`'s block iff each coordinate is in the block's range on its axis. -/
theorem mem_blk6 (t : Fin cfg0.N) (i : S32x1024x64.Idx) :
    i ∈ ((cfg0.win 6).blk t).view.set ↔ ∀ a : Fin 3, win0_6.index t a * S8x1024x64.size a ≤ (i a).val
      ∧ (i a).val < win0_6.index t a * S8x1024x64.size a + S8x1024x64.size a := by
  show i ∈ ((View.whole main_v1).slice (win0_6.rect t)).set ↔ _
  rw [View.set_slice_whole, Rect.mem_set_unit]
  exact Iff.rfl

/-- Every index of the result array is in the block of the point its batch coordinate names. -/
theorem cover (i : S32x1024x64.Idx) :
    ∃ t : Fin cfg0.N, (cfg0.win 6).flush t = true ∧ i ∈ ((cfg0.win 6).blk t).view.set := by
  have hi0 : (i 0).val < 32 := (i 0).isLt
  have hi1 : (i 1).val < 1024 := (i 1).isLt
  have hi2 : (i 2).val < 64 := (i 2).isLt
  have hN : (i 0).val / 8 < cfg0.N := by
    show (i 0).val / 8 < grid0.N
    rw [N_0]; omega
  refine ⟨⟨(i 0).val / 8, hN⟩, flush0_6 _, ?_⟩
  rw [mem_blk6]
  obtain ⟨-, -, -, -, -, -, -, -, -, -, -, -, -, e0, e1, e2⟩ := idx_facts ⟨(i 0).val / 8, hN⟩
  intro a
  match a with
  | ⟨0, _⟩ =>
    show win0_6.index ⟨(i 0).val / 8, hN⟩ (0 : Fin 3) * 8 ≤ (i 0).val ∧ (i 0).val < win0_6.index ⟨(i 0).val / 8, hN⟩ (0 : Fin 3) * 8 + 8
    rw [e0]; show (i 0).val / 8 * 8 ≤ (i 0).val ∧ (i 0).val < (i 0).val / 8 * 8 + 8; omega
  | ⟨1, _⟩ =>
    show win0_6.index ⟨(i 0).val / 8, hN⟩ (1 : Fin 3) * 1024 ≤ (i 1).val ∧ (i 1).val < win0_6.index ⟨(i 0).val / 8, hN⟩ (1 : Fin 3) * 1024 + 1024
    rw [e1]; omega
  | ⟨2, _⟩ =>
    show win0_6.index ⟨(i 0).val / 8, hN⟩ (2 : Fin 3) * 64 ≤ (i 2).val ∧ (i 2).val < win0_6.index ⟨(i 0).val / 8, hN⟩ (2 : Fin 3) * 64 + 64
    rw [e2]; omega

/-- The result array after the run. -/
theorem final (c : Dev nD) : (dats m 0 c).arrAt 6 cfg0.N = Gout m c :=
  (dats m 0 c).arrAt_eq_of_cover 6 (Gout m c) (fun t _ => flushed_eq m c t) cover

theorem Gout_eq (c : Dev nD) :
    Gout m c = Cert.Gat.out (m ((c : Thread nD τ).loc main_arg0)) (m ((c : Thread nD τ).loc main_arg3))
      (m ((c : Thread nD τ).loc main_arg2)) (m ((c : Thread nD τ).loc main_arg4))
      (m ((c : Thread nD τ).loc main_arg5)) (m ((c : Thread nD τ).loc main_arg6)) := by
  unfold Gout
  rw [V_main_arg0, V_main_arg3, V_main_arg2, V_main_arg4, V_main_arg5, V_main_arg6]

/-- The kernel's run: the result array is the specification's function of the arguments, which are unchanged. -/
theorem run : θ_run defs (onTc (τ := τ) (main (F := Ideal))) ⟨m, fun _ => 0, ρ⟩ fun r => ∀ c : Dev nD,
      r.2.mem ((c : Thread nD τ).loc main_v1)
        = Cert.Gat.out (m ((c : Thread nD τ).loc main_arg0)) (m ((c : Thread nD τ).loc main_arg3))
            (m ((c : Thread nD τ).loc main_arg2)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (Gout_eq m c)), (h c).2⟩) (run_blocks m ρ)

end Cert.KernelIdeal.ArrayValue

end
-- ==== Proof.RefRun.lean ====
import proofs.«121971_j22273700397226_2_alg».proof.Proof.Gen.ReferenceIdeal
import Idealize.ShloMosaic.Lib.StableHlo.Run

/-!
# The reference's run as the fold of its operations

The reference computes, with no kernel, a straight line of tensor operations: twenty-eight of its main function
and, at the one call of the leaky function, that function's six operations and the select of the function it
calls in turn, over the call's own buffers. Listed in order they are one line of thirty-five operations, and
every execution ends with each buffer at the fold of the line over the launch contents.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The thirty-five operations in order, the two calls unfolded at the call site. -/
abbrev ops : List (HloOp τ sig (Elt F)) :=
  [ binary main_arg0 main_arg3 main_v0 ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F)),
    nullary main_cst (constant S_ .f32 0x00000000#32),
    binary main_arg4 main_cst main_v1 ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F)),
    unary main_v1 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S32x1024x64 ![0, 1, 2] bcast_S1x1x64_S32x1024x64_0_1_2 : (⟨S1x1x64, .f32⟩ : BufTy).Contents (Elt F) → (⟨S32x1024x64, .f32⟩ : BufTy).Contents (Elt F)),
    binary main_v0 main_v3 main_v4 (mulf : (⟨S32x1024x64, .f32⟩ : BufTy).Contents (Elt F) → (⟨S32x1024x64, .f32⟩ : BufTy).Contents (Elt F) → (⟨S32x1024x64, .f32⟩ : BufTy).Contents (Elt F)),
    binary main_v4 main_v0 main_v5 ((fun l r => Host.dotGeneral dot_S32x1024x64_S32x1024x64_S32x1024x1024_2_2_1_1_0_0 none l r) : (⟨S32x1024x64, .f32⟩ : BufTy).Contents (Elt F) → (⟨S32x1024x64, .f32⟩ : BufTy).Contents (Elt F) → (⟨S32x1024x1024, .f32⟩ : BufTy).Contents (Elt F)),
    nullary main_v6 (iotaInDim S1024x1024 32 0),
    nullary main_v7 (iotaInDim S1024x1024 32 1),
    nullary main_c (constantI S_ 32 0#32),
    unary main_c main_v8 (broadcastInDim S1024x1024 ![] bcast_S_S1024x1024 : (⟨S_, .i32⟩ : BufTy).Contents (Elt F) → (⟨S1024x1024, .i32⟩ : BufTy).Contents (Elt F)),
    binary main_v6 main_v8 main_v9 (addi : (⟨S1024x1024, .i32⟩ : BufTy).Contents (Elt F) → (⟨S1024x1024, .i32⟩ : BufTy).Contents (Elt F) → (⟨S1024x1024, .i32⟩ : BufTy).Contents (Elt F)),
    binary main_v9 main_v7 main_v10 (cmpi .eq : (⟨S1024x1024, .i32⟩ : BufTy).Contents (Elt F) → (⟨S1024x1024, .i32⟩ : BufTy).Contents (Elt F) → (⟨S1024x1024, .i1⟩ : BufTy).Contents (Elt F)),
    unary main_v10 main_v11 (uitofp .f32 : (⟨S1024x1024, .i1⟩ : BufTy).Contents (Elt F) → (⟨S1024x1024, .f32⟩ : BufTy).Contents (Elt F)),
    nullary main_cst_0 (constant S_ .f32 0x3F800000#32),
    unary main_cst_0 main_v12 (broadcastInDim S1024x1024 ![] bcast_S_S1024x1024 : (⟨S_, .f32⟩ : BufTy).Contents (Elt F) → (⟨S1024x1024, .f32⟩ : BufTy).Contents (Elt F)),
    binary main_v12 main_v11 main_v13 (subf : (⟨S1024x1024, .f32⟩ : BufTy).Contents (Elt F) → (⟨S1024x1024, .f32⟩ : BufTy).Contents (Elt F) → (⟨S1024x1024, .f32⟩ : BufTy).Contents (Elt F)),
    unary main_v13 main_v14 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v14 main_v15 (broadcastInDim S32x1024x1024 ![0, 1, 2] bcast_S1x1024x1024_S32x1024x1024_0_1_2 : (⟨S1x1024x1024, .f32⟩ : BufTy).Contents (Elt F) → (⟨S32x1024x1024, .f32⟩ : BufTy).Contents (Elt F)),
    binary main_v5 main_v15 main_v16 (mulf : (⟨S32x1024x1024, .f32⟩ : BufTy).Contents (Elt F) → (⟨S32x1024x1024, .f32⟩ : BufTy).Contents (Elt F) → (⟨S32x1024x1024, .f32⟩ : BufTy).Contents (Elt F)),
    nullary main_cst_1 (constant S_ .f32 0x3C23D70A#32),
    TRef.nullary main_call0.cst (constant S_ .f32 0x00000000#32),
    TRef.unary main_call0.cst main_call0.v0 (broadcastInDim S32x1024x1024 ![] bcast_S_S32x1024x1024),
    TRef.binary (.of main_v16) main_call0.v0 main_call0.v1 (cmpf .oge),
    TRef.unary (.of main_cst_1) main_call0.v2 id,
    TRef.unary main_call0.v2 main_call0.v3 (broadcastInDim S32x1024x1024 ![] bcast_S_S32x1024x1024),
    TRef.binary main_call0.v3 (.of main_v16) main_call0.v4 mulf,
    TRef.ternary main_call0.v1 (.of main_v16) main_call0.v4 main_call0.call0.v0 select,
    binary main_arg0 main_arg2 main_v18 ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F)),
    binary main_v17 main_v18 main_v19 ((fun l r => Host.dotGeneral dot_S32x1024x1024_S32x1024x64_S32x1024x64_2_1_1_2_0_0 none l r) : (⟨S32x1024x1024, .f32⟩ : BufTy).Contents (Elt F) → (⟨S32x1024x64, .f32⟩ : BufTy).Contents (Elt F) → (⟨S32x1024x64, .f32⟩ : BufTy).Contents (Elt F)),
    unary main_arg5 main_v20 (broadcastInDim S1x1x64 ![2] bcast_S64_S1x1x64_2 : (⟨S64, .f32⟩ : BufTy).Contents (Elt F) → (⟨S1x1x64, .f32⟩ : BufTy).Contents (Elt F)),
    unary main_v20 main_v21 (broadcastInDim S32x1024x64 ![0, 1, 2] bcast_S1x1x64_S32x1024x64_0_1_2 : (⟨S1x1x64, .f32⟩ : BufTy).Contents (Elt F) → (⟨S32x1024x64, .f32⟩ : BufTy).Contents (Elt F)),
    binary main_v19 main_v21 main_v22 (addf : (⟨S32x1024x64, .f32⟩ : BufTy).Contents (Elt F) → (⟨S32x1024x64, .f32⟩ : BufTy).Contents (Elt F) → (⟨S32x1024x64, .f32⟩ : BufTy).Contents (Elt F)),
    binary main_arg0 main_arg6 main_v23 ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F)),
    binary main_v22 main_v23 main_v24 (addf : (⟨S32x1024x64, .f32⟩ : BufTy).Contents (Elt F) → (⟨S32x1024x64, .f32⟩ : BufTy).Contents (Elt F) → (⟨S32x1024x64, .f32⟩ : BufTy).Contents (Elt F)) ]

set_option maxRecDepth 1024 in
/-- The main function is that straight line: the two callees' bodies substituted at their calls and the
    sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., binary_bufs_sub .., binary_bufs_sub ..⟩

/-- Every weakly fair execution of the reference terminates, and every final state has each buffer at the
    fold of the thirty-five operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefFold.lean ====
import proofs.«121971_j22273700397226_2_alg».proof.Proof.RefRun
import proofs.«121971_j22273700397226_2_alg».proof.Proof.LibAfterAssign

/-!
# The fold of the reference's operations, read one operation at a time

The line of thirty-five operations is in single-assignment form: each operation writes one buffer, no two the
same, none an argument. So at the end of the line each written buffer holds its operation's function of what the
END of the line holds at the operands, and each argument buffer what it held at the start. These are the
thirty-five equations and the seven, for any float values.
-/

noncomputable section

namespace Cert.ReferenceIdeal.RefFold

open Cert.ReferenceIdeal Cert.ReferenceIdeal.Gen Cert.ReferenceIdeal.RefRun Idealize.ShloMosaic Idealize.ShloMosaic.TcCoe
  Idealize.SL.Sem Idealize.ShloMosaic.StableHlo Cert.Lib.AfterAssign

variable {F : FTy → Type} [FloatOps F]

/-- The buffer each operation writes, in order. -/
abbrev ws : List (Ref sig .tc) :=
  [main_v0, main_cst, main_v1, main_v2, main_v3, main_v4, main_v5, main_v6, main_v7, main_c, main_v8, main_v9, main_v10, main_v11, main_cst_0, main_v12, main_v13, main_v14, main_v15, main_v16, main_cst_1, main_call0_cst, main_call0_v0, main_call0_v1, main_call0_v2, main_call0_v3, main_call0_v4, main_v17, main_v18, main_v19, main_v20, main_v21, main_v22, main_v23, main_v24]

/-- Operation `k` of the line writes exactly reference `k` of that list. -/
theorem hW : WritesAre (ops : List (HloOp τ sig (Elt F))) ws :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

theorem at_v0 (V : Valuation τ sig (Elt F)) :
    after ops V (Proc.devRef .tc main_v0)
      = ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F))
          (after ops V (Proc.devRef .tc main_arg0))
          (after ops V (Proc.devRef .tc main_arg3)) :=
  after_binary (a := main_arg0) (b := main_arg3) (y := main_v0) (f := ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F))) hW 0 rfl V (by decide) (by decide) (by decide)

theorem at_cst (V : Valuation τ sig (Elt F)) :
    after ops V (Proc.devRef .tc main_cst) = (constant S_ .f32 0x00000000#32) :=
  after_nullary (y := main_cst) hW 1 rfl V (by decide)

theorem at_v1 (V : Valuation τ sig (Elt F)) :
    after ops V (Proc.devRef .tc main_v1)
      = ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F))
          (after ops V (Proc.devRef .tc main_arg4))
          (after ops V (Proc.devRef .tc main_cst)) :=
  after_binary (a := main_arg4) (b := main_cst) (y := main_v1) (f := ((fun x v => Host.reduceAdd x v reducesTo_S64x64_S64_d0 h_S_) : (⟨S64x64, .f32⟩ : BufTy).Contents (Elt F) → (⟨S_, .f32⟩ : BufTy).Contents (Elt F) → (⟨S64, .f32⟩ : BufTy).Contents (Elt F))) hW 2 rfl V (by decide) (by decide) (by decide)

theorem at_v2 (V : Valuation τ sig (Elt F)) :
    after ops V (Proc.devRef .tc main_v2)
      = (broadcastInDim S1x1x64 ![2] bcast_S64_S1x1x64_2 : (⟨S64, .f32⟩ : BufTy).Contents (Elt F) → (⟨S1x1x64, .f32⟩ : BufTy).Contents (Elt F))
          (after ops V (Proc.devRef .tc main_v1)) :=
  after_unary (x := main_v1) (y := main_v2) (f := (broadcastInDim S1x1x64 ![2] bcast_S64_S1x1x64_2 : (⟨S64, .f32⟩ : BufTy).Contents (Elt F) → (⟨S1x1x64, .f32⟩ : BufTy).Contents (Elt F))) hW 3 rfl V (by decide) (by decide)

theorem at_v3 (V : Valuation τ sig (Elt F)) :
    after ops V (Proc.devRef .tc main_v3)
      = (broadcastInDim S32x1024x64 ![0, 1, 2] bcast_S1x1x64_S32x1024x64_0_1_2 : (⟨S1x1x64, .f32⟩ : BufTy).Contents (Elt F) → (⟨S32x1024x64, .f32⟩ : BufTy).Contents (Elt F))
          (after ops V (Proc.devRef .tc main_v2)) :=
  after_unary (x := main_v2) (y := main_v3) (f := (broadcastInDim S32x1024x64 ![0, 1, 2] bcast_S1x1x64_S32x1024x64_0_1_2 : (⟨S1x1x64, .f32⟩ : BufTy).Contents (Elt F) → (⟨S32x1024x64, .f32⟩ : BufTy).Contents (Elt F))) hW 4 rfl V (by decide) (by decide)

theorem at_v4 (V : Valuation τ sig (Elt F)) :
    after ops V (Proc.devRef .tc main_v4)
      = (mulf : (⟨S32x1024x64, .f32⟩ : BufTy).Contents (Elt F) → (⟨S32x1024x64, .f32⟩ : BufTy).Contents (Elt F) → (⟨S32x1024x64, .f32⟩ : BufTy).Contents (Elt F))
          (after ops V (Proc.devRef .tc main_v0))
          (after ops V (Proc.devRef .tc main_v3)) :=
  after_binary (a := main_v0) (b := main_v3) (y := main_v4) (f := (mulf : (⟨S32x1024x64, .f32⟩ : BufTy).Contents (Elt F) → (⟨S32x1024x64, .f32⟩ : BufTy).Contents (Elt F) → (⟨S32x1024x64, .f32⟩ : BufTy).Contents (Elt F))) hW 5 rfl V (by decide) (by decide) (by decide)

theorem at_v5 (V : Valuation τ sig (Elt F)) :
    after ops V (Proc.devRef .tc main_v5)
      = ((fun l r => Host.dotGeneral dot_S32x1024x64_S32x1024x64_S32x1024x1024_2_2_1_1_0_0 none l r) : (⟨S32x1024x64, .f32⟩ : BufTy).Contents (Elt F) → (⟨S32x1024x64, .f32⟩ : BufTy).Contents (Elt F) → (⟨S32x1024x1024, .f32⟩ : BufTy).Contents (Elt F))
          (after ops V (Proc.devRef .tc main_v4))
          (after ops V (Proc.devRef .tc main_v0)) :=
  after_binary (a := main_v4) (b := main_v0) (y := main_v5) (f := ((fun l r => Host.dotGeneral dot_S32x1024x64_S32x1024x64_S32x1024x1024_2_2_1_1_0_0 none l r) : (⟨S32x1024x64, .f32⟩ : BufTy).Contents (Elt F) → (⟨S32x1024x64, .f32⟩ : BufTy).Contents (Elt F) → (⟨S32x1024x1024, .f32⟩ : BufTy).Contents (Elt F))) hW 6 rfl V (by decide) (by decide) (by decide)

theorem at_v6 (V : Valuation τ sig (Elt F)) :
    after ops V (Proc.devRef .tc main_v6) = (iotaInDim S1024x1024 32 0) :=
  after_nullary (y := main_v6) hW 7 rfl V (by decide)

theorem at_v7 (V : Valuation τ sig (Elt F)) :
    after ops V (Proc.devRef .tc main_v7) = (iotaInDim S1024x1024 32 1) :=
  after_nullary (y := main_v7) hW 8 rfl V (by decide)

theorem at_c (V : Valuation τ sig (Elt F)) :
    after ops V (Proc.devRef .tc main_c) = (constantI S_ 32 0#32) :=
  after_nullary (y := main_c) hW 9 rfl V (by decide)

theorem at_v8 (V : Valuation τ sig (Elt F)) :
    after ops V (Proc.devRef .tc main_v8)
      = (broadcastInDim S1024x1024 ![] bcast_S_S1024x1024 : (⟨S_, .i32⟩ : BufTy).Contents (Elt F) → (⟨S1024x1024, .i32⟩ : BufTy).Contents (Elt F))
          (after ops V (Proc.devRef .tc main_c)) :=
  after_unary (x := main_c) (y := main_v8) (f := (broadcastInDim S1024x1024 ![] bcast_S_S1024x1024 : (⟨S_, .i32⟩ : BufTy).Contents (Elt F) → (⟨S1024x1024, .i32⟩ : BufTy).Contents (Elt F))) hW 10 rfl V (by decide) (by decide)

theorem at_v9 (V : Valuation τ sig (Elt F)) :
    after ops V (Proc.devRef .tc main_v9)
      = (addi : (⟨S1024x1024, .i32⟩ : BufTy).Contents (Elt F) → (⟨S1024x1024, .i32⟩ : BufTy).Contents (Elt F) → (⟨S1024x1024, .i32⟩ : BufTy).Contents (Elt F))
          (after ops V (Proc.devRef .tc main_v6))
          (after ops V (Proc.devRef .tc main_v8)) :=
  after_binary (a := main_v6) (b := main_v8) (y := main_v9) (f := (addi : (⟨S1024x1024, .i32⟩ : BufTy).Contents (Elt F) → (⟨S1024x1024, .i32⟩ : BufTy).Contents (Elt F) → (⟨S1024x1024, .i32⟩ : BufTy).Contents (Elt F))) hW 11 rfl V (by decide) (by decide) (by decide)

theorem at_v10 (V : Valuation τ sig (Elt F)) :
    after ops V (Proc.devRef .tc main_v10)
      = (cmpi .eq : (⟨S1024x1024, .i32⟩ : BufTy).Contents (Elt F) → (⟨S1024x1024, .i32⟩ : BufTy).Contents (Elt F) → (⟨S1024x1024, .i1⟩ : BufTy).Contents (Elt F))
          (after ops V (Proc.devRef .tc main_v9))
          (after ops V (Proc.devRef .tc main_v7)) :=
  after_binary (a := main_v9) (b := main_v7) (y := main_v10) (f := (cmpi .eq : (⟨S1024x1024, .i32⟩ : BufTy).Contents (Elt F) → (⟨S1024x1024, .i32⟩ : BufTy).Contents (Elt F) → (⟨S1024x1024, .i1⟩ : BufTy).Contents (Elt F))) hW 12 rfl V (by decide) (by decide) (by decide)

theorem at_v11 (V : Valuation τ sig (Elt F)) :
    after ops V (Proc.devRef .tc main_v11)
      = (uitofp .f32 : (⟨S1024x1024, .i1⟩ : BufTy).Contents (Elt F) → (⟨S1024x1024, .f32⟩ : BufTy).Contents (Elt F))
          (after ops V (Proc.devRef .tc main_v10)) :=
  after_unary (x := main_v10) (y := main_v11) (f := (uitofp .f32 : (⟨S1024x1024, .i1⟩ : BufTy).Contents (Elt F) → (⟨S1024x1024, .f32⟩ : BufTy).Contents (Elt F))) hW 13 rfl V (by decide) (by decide)

theorem at_cst_0 (V : Valuation τ sig (Elt F)) :
    after ops V (Proc.devRef .tc main_cst_0) = (constant S_ .f32 0x3F800000#32) :=
  after_nullary (y := main_cst_0) hW 14 rfl V (by decide)

theorem at_v12 (V : Valuation τ sig (Elt F)) :
    after ops V (Proc.devRef .tc main_v12)
      = (broadcastInDim S1024x1024 ![] bcast_S_S1024x1024 : (⟨S_, .f32⟩ : BufTy).Contents (Elt F) → (⟨S1024x1024, .f32⟩ : BufTy).Contents (Elt F))
          (after ops V (Proc.devRef .tc main_cst_0)) :=
  after_unary (x := main_cst_0) (y := main_v12) (f := (broadcastInDim S1024x1024 ![] bcast_S_S1024x1024 : (⟨S_, .f32⟩ : BufTy).Contents (Elt F) → (⟨S1024x1024, .f32⟩ : BufTy).Contents (Elt F))) hW 15 rfl V (by decide) (by decide)

theorem at_v13 (V : Valuation τ sig (Elt F)) :
    after ops V (Proc.devRef .tc main_v13)
      = (subf : (⟨S1024x1024, .f32⟩ : BufTy).Contents (Elt F) → (⟨S1024x1024, .f32⟩ : BufTy).Contents (Elt F) → (⟨S1024x1024, .f32⟩ : BufTy).Contents (Elt F))
          (after ops V (Proc.devRef .tc main_v12))
          (after ops V (Proc.devRef .tc main_v11)) :=
  after_binary (a := main_v12) (b := main_v11) (y := main_v13) (f := (subf : (⟨S1024x1024, .f32⟩ : BufTy).Contents (Elt F) → (⟨S1024x1024, .f32⟩ : BufTy).Contents (Elt F) → (⟨S1024x1024, .f32⟩ : BufTy).Contents (Elt F))) hW 16 rfl V (by decide) (by decide) (by decide)

theorem at_v14 (V : Valuation τ sig (Elt F)) :
    after ops V (Proc.devRef .tc main_v14)
      = (broadcastInDim S1x1024x1024 ![1, 2] bcast_S1024x1024_S1x1024x1024_1_2 : (⟨S1024x1024, .f32⟩ : BufTy).Contents (Elt F) → (⟨S1x1024x1024, .f32⟩ : BufTy).Contents (Elt F))
          (after ops V (Proc.devRef .tc main_v13)) :=
  after_unary (x := main_v13) (y := main_v14) (f := (broadcastInDim S1x1024x1024 ![1, 2] bcast_S1024x1024_S1x1024x1024_1_2 : (⟨S1024x1024, .f32⟩ : BufTy).Contents (Elt F) → (⟨S1x1024x1024, .f32⟩ : BufTy).Contents (Elt F))) hW 17 rfl V (by decide) (by decide)

theorem at_v15 (V : Valuation τ sig (Elt F)) :
    after ops V (Proc.devRef .tc main_v15)
      = (broadcastInDim S32x1024x1024 ![0, 1, 2] bcast_S1x1024x1024_S32x1024x1024_0_1_2 : (⟨S1x1024x1024, .f32⟩ : BufTy).Contents (Elt F) → (⟨S32x1024x1024, .f32⟩ : BufTy).Contents (Elt F))
          (after ops V (Proc.devRef .tc main_v14)) :=
  after_unary (x := main_v14) (y := main_v15) (f := (broadcastInDim S32x1024x1024 ![0, 1, 2] bcast_S1x1024x1024_S32x1024x1024_0_1_2 : (⟨S1x1024x1024, .f32⟩ : BufTy).Contents (Elt F) → (⟨S32x1024x1024, .f32⟩ : BufTy).Contents (Elt F))) hW 18 rfl V (by decide) (by decide)

theorem at_v16 (V : Valuation τ sig (Elt F)) :
    after ops V (Proc.devRef .tc main_v16)
      = (mulf : (⟨S32x1024x1024, .f32⟩ : BufTy).Contents (Elt F) → (⟨S32x1024x1024, .f32⟩ : BufTy).Contents (Elt F) → (⟨S32x1024x1024, .f32⟩ : BufTy).Contents (Elt F))
          (after ops V (Proc.devRef .tc main_v5))
          (after ops V (Proc.devRef .tc main_v15)) :=
  after_binary (a := main_v5) (b := main_v15) (y := main_v16) (f := (mulf : (⟨S32x1024x1024, .f32⟩ : BufTy).Contents (Elt F) → (⟨S32x1024x1024, .f32⟩ : BufTy).Contents (Elt F) → (⟨S32x1024x1024, .f32⟩ : BufTy).Contents (Elt F))) hW 19 rfl V (by decide) (by decide) (by decide)

theorem at_cst_1 (V : Valuation τ sig (Elt F)) :
    after ops V (Proc.devRef .tc main_cst_1) = (constant S_ .f32 0x3C23D70A#32) :=
  after_nullary (y := main_cst_1) hW 20 rfl V (by decide)

theorem at_call0_cst (V : Valuation τ sig (Elt F)) :
    after ops V (Proc.devRef .tc main_call0_cst) = (constant S_ .f32 0x00000000#32) :=
  after_nullary (y := main_call0_cst) hW 21 rfl V (by decide)

theorem at_call0_v0 (V : Valuation τ sig (Elt F)) :
    after ops V (Proc.devRef .tc main_call0_v0)
      = (broadcastInDim S32x1024x1024 ![] bcast_S_S32x1024x1024 : (⟨S_, .f32⟩ : BufTy).Contents (Elt F) → (⟨S32x1024x1024, .f32⟩ : BufTy).Contents (Elt F))
          (after ops V (Proc.devRef .tc main_call0_cst)) :=
  after_unary (x := main_call0_cst) (y := main_call0_v0) (f := (broadcastInDim S32x1024x1024 ![] bcast_S_S32x1024x1024 : (⟨S_, .f32⟩ : BufTy).Contents (Elt F) → (⟨S32x1024x1024, .f32⟩ : BufTy).Contents (Elt F))) hW 22 rfl V (by decide) (by decide)

theorem at_call0_v1 (V : Valuation τ sig (Elt F)) :
    after ops V (Proc.devRef .tc main_call0_v1)
      = (cmpf .oge : (⟨S32x1024x1024, .f32⟩ : BufTy).Contents (Elt F) → (⟨S32x1024x1024, .f32⟩ : BufTy).Contents (Elt F) → (⟨S32x1024x1024, .i1⟩ : BufTy).Contents (Elt F))
          (after ops V (Proc.devRef .tc main_v16))
          (after ops V (Proc.devRef .tc main_call0_v0)) :=
  after_binary (a := main_v16) (b := main_call0_v0) (y := main_call0_v1) (f := (cmpf .oge : (⟨S32x1024x1024, .f32⟩ : BufTy).Contents (Elt F) → (⟨S32x1024x1024, .f32⟩ : BufTy).Contents (Elt F) → (⟨S32x1024x1024, .i1⟩ : BufTy).Contents (Elt F))) hW 23 rfl V (by decide) (by decide) (by decide)

theorem at_call0_v2 (V : Valuation τ sig (Elt F)) :
    after ops V (Proc.devRef .tc main_call0_v2)
      = (id : (⟨S_, .f32⟩ : BufTy).Contents (Elt F) → (⟨S_, .f32⟩ : BufTy).Contents (Elt F))
          (after ops V (Proc.devRef .tc main_cst_1)) :=
  after_unary (x := main_cst_1) (y := main_call0_v2) (f := (id : (⟨S_, .f32⟩ : BufTy).Contents (Elt F) → (⟨S_, .f32⟩ : BufTy).Contents (Elt F))) hW 24 rfl V (by decide) (by decide)

theorem at_call0_v3 (V : Valuation τ sig (Elt F)) :
    after ops V (Proc.devRef .tc main_call0_v3)
      = (broadcastInDim S32x1024x1024 ![] bcast_S_S32x1024x1024 : (⟨S_, .f32⟩ : BufTy).Contents (Elt F) → (⟨S32x1024x1024, .f32⟩ : BufTy).Contents (Elt F))
          (after ops V (Proc.devRef .tc main_call0_v2)) :=
  after_unary (x := main_call0_v2) (y := main_call0_v3) (f := (broadcastInDim S32x1024x1024 ![] bcast_S_S32x1024x1024 : (⟨S_, .f32⟩ : BufTy).Contents (Elt F) → (⟨S32x1024x1024, .f32⟩ : BufTy).Contents (Elt F))) hW 25 rfl V (by decide) (by decide)

theorem at_call0_v4 (V : Valuation τ sig (Elt F)) :
    after ops V (Proc.devRef .tc main_call0_v4)
      = (mulf : (⟨S32x1024x1024, .f32⟩ : BufTy).Contents (Elt F) → (⟨S32x1024x1024, .f32⟩ : BufTy).Contents (Elt F) → (⟨S32x1024x1024, .f32⟩ : BufTy).Contents (Elt F))
          (after ops V (Proc.devRef .tc main_call0_v3))
          (after ops V (Proc.devRef .tc main_v16)) :=
  after_binary (a := main_call0_v3) (b := main_v16) (y := main_call0_v4) (f := (mulf : (⟨S32x1024x1024, .f32⟩ : BufTy).Contents (Elt F) → (⟨S32x1024x1024, .f32⟩ : BufTy).Contents (Elt F) → (⟨S32x1024x1024, .f32⟩ : BufTy).Contents (Elt F))) hW 26 rfl V (by decide) (by decide) (by decide)

theorem at_v17 (V : Valuation τ sig (Elt F)) :
    after ops V (Proc.devRef .tc main_v17)
      = (select : (⟨S32x1024x1024, .i1⟩ : BufTy).Contents (Elt F) → (⟨S32x1024x1024, .f32⟩ : BufTy).Contents (Elt F) → (⟨S32x1024x1024, .f32⟩ : BufTy).Contents (Elt F) → (⟨S32x1024x1024, .f32⟩ : BufTy).Contents (Elt F))
          (after ops V (Proc.devRef .tc main_call0_v1))
          (after ops V (Proc.devRef .tc main_v16))
          (after ops V (Proc.devRef .tc main_call0_v4)) :=
  after_ternary (c := main_call0_v1) (a := main_v16) (b := main_call0_v4) (y := main_v17) (f := (select : (⟨S32x1024x1024, .i1⟩ : BufTy).Contents (Elt F) → (⟨S32x1024x1024, .f32⟩ : BufTy).Contents (Elt F) → (⟨S32x1024x1024, .f32⟩ : BufTy).Contents (Elt F) → (⟨S32x1024x1024, .f32⟩ : BufTy).Contents (Elt F))) hW 27 rfl V (by decide) (by decide) (by decide) (by decide)

theorem at_v18 (V : Valuation τ sig (Elt F)) :
    after ops V (Proc.devRef .tc main_v18)
      = ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F))
          (after ops V (Proc.devRef .tc main_arg0))
          (after ops V (Proc.devRef .tc main_arg2)) :=
  after_binary (a := main_arg0) (b := main_arg2) (y := main_v18) (f := ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F))) hW 28 rfl V (by decide) (by decide) (by decide)

theorem at_v19 (V : Valuation τ sig (Elt F)) :
    after ops V (Proc.devRef .tc main_v19)
      = ((fun l r => Host.dotGeneral dot_S32x1024x1024_S32x1024x64_S32x1024x64_2_1_1_2_0_0 none l r) : (⟨S32x1024x1024, .f32⟩ : BufTy).Contents (Elt F) → (⟨S32x1024x64, .f32⟩ : BufTy).Contents (Elt F) → (⟨S32x1024x64, .f32⟩ : BufTy).Contents (Elt F))
          (after ops V (Proc.devRef .tc main_v17))
          (after ops V (Proc.devRef .tc main_v18)) :=
  after_binary (a := main_v17) (b := main_v18) (y := main_v19) (f := ((fun l r => Host.dotGeneral dot_S32x1024x1024_S32x1024x64_S32x1024x64_2_1_1_2_0_0 none l r) : (⟨S32x1024x1024, .f32⟩ : BufTy).Contents (Elt F) → (⟨S32x1024x64, .f32⟩ : BufTy).Contents (Elt F) → (⟨S32x1024x64, .f32⟩ : BufTy).Contents (Elt F))) hW 29 rfl V (by decide) (by decide) (by decide)

theorem at_v20 (V : Valuation τ sig (Elt F)) :
    after ops V (Proc.devRef .tc main_v20)
      = (broadcastInDim S1x1x64 ![2] bcast_S64_S1x1x64_2 : (⟨S64, .f32⟩ : BufTy).Contents (Elt F) → (⟨S1x1x64, .f32⟩ : BufTy).Contents (Elt F))
          (after ops V (Proc.devRef .tc main_arg5)) :=
  after_unary (x := main_arg5) (y := main_v20) (f := (broadcastInDim S1x1x64 ![2] bcast_S64_S1x1x64_2 : (⟨S64, .f32⟩ : BufTy).Contents (Elt F) → (⟨S1x1x64, .f32⟩ : BufTy).Contents (Elt F))) hW 30 rfl V (by decide) (by decide)

theorem at_v21 (V : Valuation τ sig (Elt F)) :
    after ops V (Proc.devRef .tc main_v21)
      = (broadcastInDim S32x1024x64 ![0, 1, 2] bcast_S1x1x64_S32x1024x64_0_1_2 : (⟨S1x1x64, .f32⟩ : BufTy).Contents (Elt F) → (⟨S32x1024x64, .f32⟩ : BufTy).Contents (Elt F))
          (after ops V (Proc.devRef .tc main_v20)) :=
  after_unary (x := main_v20) (y := main_v21) (f := (broadcastInDim S32x1024x64 ![0, 1, 2] bcast_S1x1x64_S32x1024x64_0_1_2 : (⟨S1x1x64, .f32⟩ : BufTy).Contents (Elt F) → (⟨S32x1024x64, .f32⟩ : BufTy).Contents (Elt F))) hW 31 rfl V (by decide) (by decide)

theorem at_v22 (V : Valuation τ sig (Elt F)) :
    after ops V (Proc.devRef .tc main_v22)
      = (addf : (⟨S32x1024x64, .f32⟩ : BufTy).Contents (Elt F) → (⟨S32x1024x64, .f32⟩ : BufTy).Contents (Elt F) → (⟨S32x1024x64, .f32⟩ : BufTy).Contents (Elt F))
          (after ops V (Proc.devRef .tc main_v19))
          (after ops V (Proc.devRef .tc main_v21)) :=
  after_binary (a := main_v19) (b := main_v21) (y := main_v22) (f := (addf : (⟨S32x1024x64, .f32⟩ : BufTy).Contents (Elt F) → (⟨S32x1024x64, .f32⟩ : BufTy).Contents (Elt F) → (⟨S32x1024x64, .f32⟩ : BufTy).Contents (Elt F))) hW 32 rfl V (by decide) (by decide) (by decide)

theorem at_v23 (V : Valuation τ sig (Elt F)) :
    after ops V (Proc.devRef .tc main_v23)
      = ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F))
          (after ops V (Proc.devRef .tc main_arg0))
          (after ops V (Proc.devRef .tc main_arg6)) :=
  after_binary (a := main_arg0) (b := main_arg6) (y := main_v23) (f := ((fun l r => Host.dotGeneral dot_S32x1024x64_S64x64_S32x1024x64_2_0_01_1_n_n none l r) : (⟨S32x1024x64, .f32⟩ : BufTy).Contents (Elt F) → (⟨S64x64, .f32⟩ : BufTy).Contents (Elt F) → (⟨S32x1024x64, .f32⟩ : BufTy).Contents (Elt F))) hW 33 rfl V (by decide) (by decide) (by decide)

theorem at_v24 (V : Valuation τ sig (Elt F)) :
    after ops V (Proc.devRef .tc main_v24)
      = (addf : (⟨S32x1024x64, .f32⟩ : BufTy).Contents (Elt F) → (⟨S32x1024x64, .f32⟩ : BufTy).Contents (Elt F) → (⟨S32x1024x64, .f32⟩ : BufTy).Contents (Elt F))
          (after ops V (Proc.devRef .tc main_v22))
          (after ops V (Proc.devRef .tc main_v23)) :=
  after_binary (a := main_v22) (b := main_v23) (y := main_v24) (f := (addf : (⟨S32x1024x64, .f32⟩ : BufTy).Contents (Elt F) → (⟨S32x1024x64, .f32⟩ : BufTy).Contents (Elt F) → (⟨S32x1024x64, .f32⟩ : BufTy).Contents (Elt F))) hW 34 rfl V (by decide) (by decide) (by decide)

theorem at_arg0 (V : Valuation τ sig (Elt F)) :
    after ops V (Proc.devRef .tc main_arg0) = V (Proc.devRef .tc main_arg0) :=
  after_of_not_written hW V (by decide)

theorem at_arg1 (V : Valuation τ sig (Elt F)) :
    after ops V (Proc.devRef .tc main_arg1) = V (Proc.devRef .tc main_arg1) :=
  after_of_not_written hW V (by decide)

theorem at_arg2 (V : Valuation τ sig (Elt F)) :
    after ops V (Proc.devRef .tc main_arg2) = V (Proc.devRef .tc main_arg2) :=
  after_of_not_written hW V (by decide)

theorem at_arg3 (V : Valuation τ sig (Elt F)) :
    after ops V (Proc.devRef .tc main_arg3) = V (Proc.devRef .tc main_arg3) :=
  after_of_not_written hW V (by decide)

theorem at_arg4 (V : Valuation τ sig (Elt F)) :
    after ops V (Proc.devRef .tc main_arg4) = V (Proc.devRef .tc main_arg4) :=
  after_of_not_written hW V (by decide)

theorem at_arg5 (V : Valuation τ sig (Elt F)) :
    after ops V (Proc.devRef .tc main_arg5) = V (Proc.devRef .tc main_arg5) :=
  after_of_not_written hW V (by decide)

theorem at_arg6 (V : Valuation τ sig (Elt F)) :
    after ops V (Proc.devRef .tc main_arg6) = V (Proc.devRef .tc main_arg6) :=
  after_of_not_written hW V (by decide)

end Cert.ReferenceIdeal.RefFold

end
-- ==== Proof.RefOps.lean ====
import proofs.«121971_j22273700397226_2_alg».proof.Proof.Gen.ReferenceIdeal
import proofs.«121971_j22273700397226_2_alg».proof.Proof.Spec
import Idealize.ShloMosaic.Lib.Pipeline.Value
import Idealize.ShloMosaic.Lib.IdealHost

/-!
# The reference's operations read at one entry, on the extended reals

Each lemma reads one kind of operation of the reference at an entry with literal coordinates: the three matrix
products as sums over the contracted coordinate, the column sums, the two chains of two broadcasts, and the
diagonal test as a bit.
-/

open scoped BigOperators

noncomputable section

namespace Cert.ReferenceIdeal.RefOps

open Cert.ReferenceIdeal Cert.ReferenceIdeal.Gen Idealize.ShloMosaic Idealize.ShloMosaic.ValueIdx

/-- A [32, 1024, 64] array times a [64, 64] matrix on the last axis: entry (b, n, g) is Σ_f X(b, n, f) · M(f, g). -/
theorem dot_proj (X : FVec Ideal S32x1024x64 .f32) (M : FVec Ideal S64x64 .f32) (b : Fin 32) (n : Fin 1024) (g : Fin 64) :
    Host.dotGeneral dot_S32x1024x64_S64x64_S32x1024x64_2_0_01_1_n_n none X M (ix3 b n g)
      = ∑ f : Fin 64, X (ix3 b n f) * M (ix2 f g) := by
  refine (Ideal.dotGeneral_apply dot_S32x1024x64_S64x64_S32x1024x64_2_0_01_1_n_n none .single X M (ix3 b n g)).trans ?_
  refine (Equiv.sum_comp (contrEquiv1 dot_S32x1024x64_S64x64_S32x1024x64_2_0_01_1_n_n 64 rfl rfl).symm _).symm.trans ?_
  refine Finset.sum_congr rfl fun f _ => ?_
  refine congrArg₂ (· * ·) (congrArg X ?_) (congrArg M ?_)
  · funext a; refine Fin.ext ?_
    match a with
    | ⟨0, _⟩ => rfl
    | ⟨1, _⟩ => rfl
    | ⟨2, _⟩ =>
      exact (DotDims.lhsIdx_val_of_single _ rfl _ _).trans
        (contrEquiv1_symm_val dot_S32x1024x64_S64x64_S32x1024x64_2_0_01_1_n_n 64 rfl rfl f)
  · funext a; refine Fin.ext ?_
    match a with
    | ⟨0, _⟩ =>
      exact (DotDims.rhsIdx_val_of_single _ rfl _ _).trans
        (contrEquiv1_symm_val dot_S32x1024x64_S64x64_S32x1024x64_2_0_01_1_n_n 64 rfl rfl f)
    | ⟨1, _⟩ => rfl

/-- Two [32, 1024, 64] arrays multiplied along their last axis, batch element by batch element: entry (b, n, m) is
    Σ_j P(b, n, j) · Q(b, m, j). -/
theorem dot_score (P Q : FVec Ideal S32x1024x64 .f32) (b : Fin 32) (n m : Fin 1024) :
    Host.dotGeneral dot_S32x1024x64_S32x1024x64_S32x1024x1024_2_2_1_1_0_0 none P Q (ix3 b n m)
      = ∑ j : Fin 64, P (ix3 b n j) * Q (ix3 b m j) := by
  refine (Ideal.dotGeneral_apply dot_S32x1024x64_S32x1024x64_S32x1024x1024_2_2_1_1_0_0 none .single P Q (ix3 b n m)).trans ?_
  refine (Equiv.sum_comp (contrEquiv1 dot_S32x1024x64_S32x1024x64_S32x1024x1024_2_2_1_1_0_0 64 rfl rfl).symm _).symm.trans ?_
  refine Finset.sum_congr rfl fun j _ => ?_
  refine congrArg₂ (· * ·) (congrArg P ?_) (congrArg Q ?_)
  · funext a; refine Fin.ext ?_
    match a with
    | ⟨0, _⟩ => rfl
    | ⟨1, _⟩ => rfl
    | ⟨2, _⟩ =>
      exact (DotDims.lhsIdx_val_of_single _ rfl _ _).trans
        (contrEquiv1_symm_val dot_S32x1024x64_S32x1024x64_S32x1024x1024_2_2_1_1_0_0 64 rfl rfl j)
  · funext a; refine Fin.ext ?_
    match a with
    | ⟨0, _⟩ => rfl
    | ⟨1, _⟩ => rfl
    | ⟨2, _⟩ =>
      exact (DotDims.rhsIdx_val_of_single _ rfl _ _).trans
        (contrEquiv1_symm_val dot_S32x1024x64_S32x1024x64_S32x1024x1024_2_2_1_1_0_0 64 rfl rfl j)

/-- A [32, 1024, 1024] array times a [32, 1024, 64] array, batch element by batch element: entry (b, n, g) is
    Σ_m A(b, n, m) · Y(b, m, g). -/
theorem dot_mix (A : FVec Ideal S32x1024x1024 .f32) (Y : FVec Ideal S32x1024x64 .f32) (b : Fin 32) (n : Fin 1024) (g : Fin 64) :
    Host.dotGeneral dot_S32x1024x1024_S32x1024x64_S32x1024x64_2_1_1_2_0_0 none A Y (ix3 b n g)
      = ∑ m : Fin 1024, A (ix3 b n m) * Y (ix3 b m g) := by
  refine (Ideal.dotGeneral_apply dot_S32x1024x1024_S32x1024x64_S32x1024x64_2_1_1_2_0_0 none .single A Y (ix3 b n g)).trans ?_
  refine (Equiv.sum_comp (contrEquiv1 dot_S32x1024x1024_S32x1024x64_S32x1024x64_2_1_1_2_0_0 1024 rfl rfl).symm _).symm.trans ?_
  refine Finset.sum_congr rfl fun m _ => ?_
  refine congrArg₂ (· * ·) (congrArg A ?_) (congrArg Y ?_)
  · funext a; refine Fin.ext ?_
    match a with
    | ⟨0, _⟩ => rfl
    | ⟨1, _⟩ => rfl
    | ⟨2, _⟩ =>
      exact (DotDims.lhsIdx_val_of_single _ rfl _ _).trans
        (contrEquiv1_symm_val dot_S32x1024x1024_S32x1024x64_S32x1024x64_2_1_1_2_0_0 1024 rfl rfl m)
  · funext a; refine Fin.ext ?_
    match a with
    | ⟨0, _⟩ => rfl
    | ⟨1, _⟩ =>
      exact (DotDims.rhsIdx_val_of_single _ rfl _ _).trans
        (contrEquiv1_symm_val dot_S32x1024x1024_S32x1024x64_S32x1024x64_2_1_1_2_0_0 1024 rfl rfl m)
    | ⟨2, _⟩ => rfl

/-- The sum over the first axis of a [64, 64] matrix from the initial value `z`: entry j is z + Σ_i a(i, j). -/
theorem reduce_colsum (a : FVec Ideal S64x64 .f32) (z : FVec Ideal S_ .f32) (h : S64x64.ReducesTo [0] S64)
    (hu : 0 < S_.numel) (j : Fin 64) :
    Host.reduceAdd a z h hu (ix1 j) = z ix0 + ∑ i : Fin 64, a (ix2 i j) := by
  have hr : S64x64.Reduces [0] S64 := by decide
  refine (hostReduceAdd_apply a z h hu (ix1 j)).trans ?_
  refine (Ideal.hostReduceAdd_single h hr a _ (ix1 j)).trans ?_
  refine congrArg₂ (· + ·) (congrArg z (eq_ix0 _)) ?_
  refine Finset.sum_congr rfl fun i _ => congrArg a ?_
  funext d; refine Fin.ext ?_
  match d with
  | ⟨0, _⟩ => rfl
  | ⟨1, _⟩ => rfl

/-- A vector of 64 entries laid along the last axis of a [32, 1024, 64] array, through a [1, 1, 64] array. -/
theorem bcast_col {α : Type} (v : S64.Idx → α) (h1 : S64.BroadcastsInDim S1x1x64 (![2] : Fin 1 → Fin S1x1x64.rank))
    (h2 : S1x1x64.BroadcastsInDim S32x1024x64 (![0, 1, 2] : Fin 3 → Fin S32x1024x64.rank))
    (b : Fin 32) (n : Fin 1024) (g : Fin 64) :
    broadcastInDim S32x1024x64 ![0, 1, 2] h2 (broadcastInDim S1x1x64 ![2] h1 v) (ix3 b n g) = v (ix1 g) := by
  refine (broadcastInDim_apply ![0, 1, 2] h2 _ (ix3 b n g) (ix3 (0 : Fin 1) (0 : Fin 1) g) ?_).trans ?_
  · intro a
    match a with
    | ⟨0, _⟩ => rfl
    | ⟨1, _⟩ => rfl
    | ⟨2, _⟩ => rfl
  · refine broadcastInDim_apply ![2] h1 v _ (ix1 g) ?_
    intro a
    match a with
    | ⟨0, _⟩ => rfl

/-- A [1024, 1024] array repeated along a new first axis of 32, through a [1, 1024, 1024] array. -/
theorem bcast_mask {α : Type} (w : S1024x1024.Idx → α)
    (h1 : S1024x1024.BroadcastsInDim S1x1024x1024 (![1, 2] : Fin 2 → Fin S1x1024x1024.rank))
    (h2 : S1x1024x1024.BroadcastsInDim S32x1024x1024 (![0, 1, 2] : Fin 3 → Fin S32x1024x1024.rank))
    (b : Fin 32) (n m : Fin 1024) :
    broadcastInDim S32x1024x1024 ![0, 1, 2] h2 (broadcastInDim S1x1024x1024 ![1, 2] h1 w) (ix3 b n m) = w (ix2 n m) := by
  refine (broadcastInDim_apply ![0, 1, 2] h2 _ (ix3 b n m) (ix3 (0 : Fin 1) n m) ?_).trans ?_
  · intro a
    match a with
    | ⟨0, _⟩ => rfl
    | ⟨1, _⟩ => rfl
    | ⟨2, _⟩ => rfl
  · refine broadcastInDim_apply ![1, 2] h1 w _ (ix2 n m) ?_
    intro a
    match a with
    | ⟨0, _⟩ => rfl
    | ⟨1, _⟩ => rfl

/-- The diagonal test: row number plus zero compared with column number, as 32-bit words, is the bit of n = m. -/
theorem diag_bit (h : S_.BroadcastsInDim S1024x1024 (![] : Fin 0 → Fin S1024x1024.rank)) (n m : Fin 1024) :
    cmpi .eq (addi (iotaInDim S1024x1024 32 0) (broadcastInDim S1024x1024 ![] h (constantI S_ 32 0#32)))
        (iotaInDim S1024x1024 32 1) (ix2 n m)
      = if n = m then 1#1 else 0#1 := by
  show IntOp.cmpi .eq (BitVec.ofNat 32 n.val + 0#32) (BitVec.ofNat 32 m.val) = _
  rw [BitVec.add_zero]
  by_cases hnm : n = m
  · subst hnm
    rw [if_pos rfl]
    simp [IntOp.cmpi]
  · rw [if_neg hnm]
    have hne : BitVec.ofNat 32 n.val ≠ BitVec.ofNat 32 m.val := by
      intro e
      have e' := congrArg BitVec.toNat e
      simp only [BitVec.toNat_ofNat] at e'
      have hn := n.isLt
      have hm := m.isLt
      rw [Nat.mod_eq_of_lt (by omega), Nat.mod_eq_of_lt (by omega)] at e'
      exact hnm (Fin.ext e')
    have hb : (BitVec.ofNat 32 n.val == BitVec.ofNat 32 m.val) = false := beq_eq_false_iff_ne.mpr hne
    show BitVec.ofBool (BitVec.ofNat 32 n.val == BitVec.ofNat 32 m.val) = 0#1
    rw [hb]
    rfl

/-- The masked score through the leaky function, with the diagonal bit decided: 0 on the diagonal, the leaky
    function of the score off it. -/
theorem masked_att (z : EReal) (n m : Fin 1024) (e : BitVec 1) (he : e = if n = m then 1#1 else 0#1) :
    Scalar.select
        (Ideal.cmp .oge (z * (Ideal.ofBits .f32 0x3F800000#32 - (((e.toNat : ℝ)) : EReal))) (Ideal.ofBits .f32 0x00000000#32))
        (z * (Ideal.ofBits .f32 0x3F800000#32 - (((e.toNat : ℝ)) : EReal)))
        (Cert.Gat.slope * (z * (Ideal.ofBits .f32 0x3F800000#32 - (((e.toNat : ℝ)) : EReal))))
      = if n = m then 0 else Cert.Gat.leaky z := by
  rw [Cert.Gat.masked_leaky, he]
  by_cases hnm : n = m
  · rw [if_pos hnm, if_pos hnm, select_one]
  · rw [if_neg hnm, if_neg hnm, select_zero]

end Cert.ReferenceIdeal.RefOps

end
-- ==== Proof.RefValue.lean ====
import proofs.«121971_j22273700397226_2_alg».proof.Proof.RefFold
import proofs.«121971_j22273700397226_2_alg».proof.Proof.RefOps

/-!
# The reference computes the graph-attention layer

Every execution of the reference ends with its result buffer at `Cert.Gat.out` of the argument arrays, the
arguments unchanged. The proof reads the result one entry at a time, walking the line of operations from the
arguments forward: the projected rows X_b · attW, the column sums of a, their product along the rows, the scores,
the diagonal mask 1 − [n = m] and the masked scores, the leaky function of the masked scores (which is 0 on the
diagonal and the leaky function of the score off it), the mixed rows, the bias and the self term.
-/

open scoped BigOperators

noncomputable section

namespace Cert.ReferenceIdeal.RefValue

open Cert.ReferenceIdeal Cert.ReferenceIdeal.Gen Cert.ReferenceIdeal.RefRun Cert.ReferenceIdeal.RefFold
  Cert.ReferenceIdeal.RefOps Idealize.ShloMosaic Idealize.ShloMosaic.TcCoe Idealize.SL.Sem Idealize.ShloMosaic.StableHlo
  Idealize.ShloMosaic.ValueIdx

variable (V : Valuation τ sig (Elt Ideal))

/-- The projected rows: buffer %0 at (b, n, j) is (X_b · attW)(n, j). -/
theorem v0_at (b : Fin 32) (n : Fin 1024) (j : Fin 64) :
    after (ops (F := Ideal)) V (Proc.devRef .tc main_v0) (ix3 b n j)
      = Cert.Gat.proj (V (Proc.devRef .tc main_arg0)) (V (Proc.devRef .tc main_arg3)) b n j := by
  rw [at_v0 V, at_arg0 V, at_arg3 V]
  exact dot_proj _ _ b n j

/-- The value rows: buffer %18 at (b, m, g) is (X_b · W)(m, g). -/
theorem v18_at (b : Fin 32) (m : Fin 1024) (g : Fin 64) :
    after (ops (F := Ideal)) V (Proc.devRef .tc main_v18) (ix3 b m g)
      = Cert.Gat.proj (V (Proc.devRef .tc main_arg0)) (V (Proc.devRef .tc main_arg2)) b m g := by
  rw [at_v18 V, at_arg0 V, at_arg2 V]
  exact dot_proj _ _ b m g

/-- The self term: buffer %23 at (b, n, g) is (X_b · selfW)(n, g). -/
theorem v23_at (b : Fin 32) (n : Fin 1024) (g : Fin 64) :
    after (ops (F := Ideal)) V (Proc.devRef .tc main_v23) (ix3 b n g)
      = Cert.Gat.proj (V (Proc.devRef .tc main_arg0)) (V (Proc.devRef .tc main_arg6)) b n g := by
  rw [at_v23 V, at_arg0 V, at_arg6 V]
  exact dot_proj _ _ b n g

/-- The column sums: buffer %1 at j is the sum of column j of a (the initial value is the zero word). -/
theorem v1_at (j : Fin 64) :
    after (ops (F := Ideal)) V (Proc.devRef .tc main_v1) (ix1 j) = Cert.Gat.colsum (V (Proc.devRef .tc main_arg4)) j := by
  rw [at_v1 V, at_cst V, at_arg4 V]
  refine (reduce_colsum _ _ _ _ j).trans ?_
  rw [constant_apply, Ideal.ofBits_zero_f32, zero_add]
  rfl

/-- The column sums laid along the rows: buffer %3 at (b, n, j). -/
theorem v3_at (b : Fin 32) (n : Fin 1024) (j : Fin 64) :
    after (ops (F := Ideal)) V (Proc.devRef .tc main_v3) (ix3 b n j) = Cert.Gat.colsum (V (Proc.devRef .tc main_arg4)) j := by
  rw [at_v3 V, at_v2 V]
  exact (bcast_col _ _ _ b n j).trans (v1_at V j)

/-- The weighted projected rows: buffer %4 at (b, n, j). -/
theorem v4_at (b : Fin 32) (n : Fin 1024) (j : Fin 64) :
    after (ops (F := Ideal)) V (Proc.devRef .tc main_v4) (ix3 b n j)
      = Cert.Gat.proj (V (Proc.devRef .tc main_arg0)) (V (Proc.devRef .tc main_arg3)) b n j
          * Cert.Gat.colsum (V (Proc.devRef .tc main_arg4)) j := by
  rw [at_v4 V]
  exact congrArg₂ (· * ·) (v0_at V b n j) (v3_at V b n j)

/-- The scores: buffer %5 at (b, n, m). -/
theorem v5_at (b : Fin 32) (n m : Fin 1024) :
    after (ops (F := Ideal)) V (Proc.devRef .tc main_v5) (ix3 b n m)
      = Cert.Gat.score (V (Proc.devRef .tc main_arg0)) (V (Proc.devRef .tc main_arg3))
          (Cert.Gat.colsum (V (Proc.devRef .tc main_arg4))) b n m := by
  rw [at_v5 V]
  refine (dot_score _ _ b n m).trans ?_
  exact Finset.sum_congr rfl fun j _ => congrArg₂ (· * ·) (v4_at V b n j) (v0_at V b m j)

/-- The diagonal bit: buffer %10 at (n, m) is the bit of n = m. -/
theorem v10_at (n m : Fin 1024) :
    after (ops (F := Ideal)) V (Proc.devRef .tc main_v10) (ix2 n m) = if n = m then 1#1 else 0#1 := by
  rw [at_v10 V, at_v9 V, at_v6 V, at_v8 V, at_c V, at_v7 V]
  exact diag_bit _ n m

/-- The mask: buffer %15 at (b, n, m) is 1 − [n = m], the 1 as its float word and the bit converted. -/
theorem v15_at (b : Fin 32) (n m : Fin 1024) :
    after (ops (F := Ideal)) V (Proc.devRef .tc main_v15) (ix3 b n m)
      = Ideal.ofBits .f32 0x3F800000#32
          - ((((after (ops (F := Ideal)) V (Proc.devRef .tc main_v10) (ix2 n m) : BitVec 1).toNat : ℝ)) : EReal) := by
  rw [at_v15 V, at_v14 V]
  refine (bcast_mask _ _ _ b n m).trans ?_
  rw [at_v13 V]
  refine (subf_apply _ _ _).trans ?_
  refine congrArg₂ (· - ·) ?_ ?_
  · rw [at_v12 V, at_cst_0 V]
    exact (broadcastInDim_scalar_apply _ _ _).trans (constant_apply _ _)
  · rw [at_v11 V]
    rfl

/-- The masked scores: buffer %16 at (b, n, m). -/
theorem v16_at (b : Fin 32) (n m : Fin 1024) :
    after (ops (F := Ideal)) V (Proc.devRef .tc main_v16) (ix3 b n m)
      = Cert.Gat.score (V (Proc.devRef .tc main_arg0)) (V (Proc.devRef .tc main_arg3))
            (Cert.Gat.colsum (V (Proc.devRef .tc main_arg4))) b n m
          * (Ideal.ofBits .f32 0x3F800000#32
              - ((((after (ops (F := Ideal)) V (Proc.devRef .tc main_v10) (ix2 n m) : BitVec 1).toNat : ℝ)) : EReal)) := by
  rw [at_v16 V]
  exact congrArg₂ (· * ·) (v5_at V b n m) (v15_at V b n m)

/-- The attention weights: buffer %17 at (b, n, m) is 0 on the diagonal and the leaky function of the score off it. -/
theorem v17_at (b : Fin 32) (n m : Fin 1024) :
    after (ops (F := Ideal)) V (Proc.devRef .tc main_v17) (ix3 b n m)
      = Cert.Gat.att (V (Proc.devRef .tc main_arg0)) (V (Proc.devRef .tc main_arg3))
          (Cert.Gat.colsum (V (Proc.devRef .tc main_arg4))) b n m := by
  have h0 : after (ops (F := Ideal)) V (Proc.devRef .tc main_call0_v0) (ix3 b n m) = Ideal.ofBits .f32 0x00000000#32 := by
    rw [at_call0_v0 V, at_call0_cst V]
    exact (broadcastInDim_scalar_apply _ _ _).trans (constant_apply _ _)
  have h3 : after (ops (F := Ideal)) V (Proc.devRef .tc main_call0_v3) (ix3 b n m) = Cert.Gat.slope := by
    rw [at_call0_v3 V, at_call0_v2 V, at_cst_1 V]
    exact (broadcastInDim_scalar_apply _ _ _).trans (constant_apply _ _)
  have h4 : after (ops (F := Ideal)) V (Proc.devRef .tc main_call0_v4) (ix3 b n m)
      = Cert.Gat.slope * after (ops (F := Ideal)) V (Proc.devRef .tc main_v16) (ix3 b n m) := by
    rw [at_call0_v4 V]
    exact congrArg₂ (· * ·) h3 rfl
  have h1 : after (ops (F := Ideal)) V (Proc.devRef .tc main_call0_v1) (ix3 b n m)
      = Ideal.cmp .oge (after (ops (F := Ideal)) V (Proc.devRef .tc main_v16) (ix3 b n m)) (Ideal.ofBits .f32 0x00000000#32) := by
    rw [at_call0_v1 V]
    exact congrArg (Ideal.cmp .oge _) h0
  rw [at_v17 V]
  refine (select_apply _ _ _ _).trans ?_
  rw [h1, h4, v16_at V b n m]
  exact masked_att _ n m _ (v10_at V n m)

/-- The mixed rows: buffer %19 at (b, n, g). -/
theorem v19_at (b : Fin 32) (n : Fin 1024) (g : Fin 64) :
    after (ops (F := Ideal)) V (Proc.devRef .tc main_v19) (ix3 b n g)
      = ∑ m : Fin 1024, Cert.Gat.att (V (Proc.devRef .tc main_arg0)) (V (Proc.devRef .tc main_arg3))
            (Cert.Gat.colsum (V (Proc.devRef .tc main_arg4))) b n m
          * Cert.Gat.proj (V (Proc.devRef .tc main_arg0)) (V (Proc.devRef .tc main_arg2)) b m g := by
  rw [at_v19 V]
  refine (dot_mix _ _ b n g).trans ?_
  exact Finset.sum_congr rfl fun m _ => congrArg₂ (· * ·) (v17_at V b n m) (v18_at V b m g)

/-- The bias laid along the rows: buffer %21 at (b, n, g). -/
theorem v21_at (b : Fin 32) (n : Fin 1024) (g : Fin 64) :
    after (ops (F := Ideal)) V (Proc.devRef .tc main_v21) (ix3 b n g) = V (Proc.devRef .tc main_arg5) (ix1 g) := by
  rw [at_v21 V, at_v20 V, at_arg5 V]
  exact bcast_col _ _ _ b n g

/-- The result buffer is the layer's result array. -/
theorem out_eq :
    after (ops (F := Ideal)) V (Proc.devRef .tc main_v24)
      = Cert.Gat.out (V (Proc.devRef .tc main_arg0)) (V (Proc.devRef .tc main_arg3)) (V (Proc.devRef .tc main_arg2))
          (V (Proc.devRef .tc main_arg4)) (V (Proc.devRef .tc main_arg5)) (V (Proc.devRef .tc main_arg6)) := by
  funext i
  obtain ⟨b, n, g, rfl⟩ : ∃ (b : Fin 32) (n : Fin 1024) (g : Fin 64), i = ix3 b n g := ⟨i 0, i 1, i 2, eq_ix3 i⟩
  rw [at_v24 V]
  refine (addf_apply _ _ _).trans ?_
  rw [at_v22 V]
  refine (congrArg₂ (· + ·) ((addf_apply _ _ _).trans (congrArg₂ (· + ·) (v19_at V b n g) (v21_at V b n g)))
    (v23_at V b n g)).trans ?_
  rfl

/-- Every execution of the reference ends with the result buffer at the layer's result array of the argument
    arrays, and the argument buffers as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24)
        = Cert.Gat.out (m ((c.tc : Thread nD τ).loc main_arg0)) (m ((c.tc : Thread nD τ).loc main_arg3))
            (m ((c.tc : Thread nD τ).loc main_arg2)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c =>
      ⟨(h c main_v24).trans (out_eq (launchContents m c)),
        (h c main_arg0).trans (at_arg0 _), (h c main_arg1).trans (at_arg1 _), (h c main_arg2).trans (at_arg2 _),
        (h c main_arg3).trans (at_arg3 _), (h c main_arg4).trans (at_arg4 _), (h c main_arg5).trans (at_arg5 _),
        (h c main_arg6).trans (at_arg6 _)⟩)
    (run_main m ρ)

end Cert.ReferenceIdeal.RefValue

end
-- ==== Proof.lean ====
/-
  A graph-attention layer: for each batch element, the rows are projected, scored against each other through the
  column sums of a weight matrix, passed through the leaky function with the diagonal removed, and the attention
  weights are applied to the value projection; a bias and a self projection are added. The kernel does this for
  eight batch elements per grid point, one after the other, with the diagonal selected to zero after the leaky
  function; the reference does it for all batch elements at once, multiplying the scores by the mask 1 − [n = m]
  before the leaky function.

  At the ideal values both result arrays are ONE function of the argument arrays (Proof/Spec.lean, `Cert.Gat.out`):
  the kernel's, because each point writes back the block of that function its batch elements name and the four
  blocks cover the array (Proof/KernelValue.lean, over the per-element reading of the body in
  Proof/KernelElemValue.lean and Proof/KernelBlock.lean); the reference's, by reading its operations one at a time
  (Proof/RefValue.lean). The two arrangements of the diagonal agree because the masked score on the diagonal is
  z · 0 = 0, which the leaky function fixes, and the mask is 1 elsewhere; no other algebra separates the sides
  (every sum is taken over the same index set in both), so the inputs' finiteness is not used. The frames are the
  generated ones for the two kernel programs and the reference's run with its result dropped; the idealization
  rewrote nothing, so there is nothing to preserve.
-/
import proofs.«121971_j22273700397226_2_alg».proof.Defs
import proofs.«121971_j22273700397226_2_alg».proof.Proof.Gen.Kernel
import proofs.«121971_j22273700397226_2_alg».proof.Proof.Gen.Kernel.Frame
import proofs.«121971_j22273700397226_2_alg».proof.Proof.Gen.KernelIdeal
import proofs.«121971_j22273700397226_2_alg».proof.Proof.Gen.KernelIdeal.Frame
import proofs.«121971_j22273700397226_2_alg».proof.Proof.Gen.KernelIdeal.Value
import proofs.«121971_j22273700397226_2_alg».proof.Proof.Gen.ReferenceIdeal
import proofs.«121971_j22273700397226_2_alg».proof.Proof.Gen.Pre_finite_inputs
import proofs.«121971_j22273700397226_2_alg».proof.Proof.KernelValue
import proofs.«121971_j22273700397226_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end with the result array at `Cert.Gat.out` of arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  obtain ⟨a0, -, a2, a3, a4, a5, a6⟩ := hagree c
  rw [a0, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
